-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S32768x8192 : Shape := ⟨2, ![32768, 8192]⟩
abbrev S64x64 : Shape := ⟨2, ![64, 64]⟩
abbrev S64 : Shape := ⟨1, ![64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S32768x8192 : S_.BroadcastsInDim S32768x8192 (![] : Fin 0 → Fin S32768x8192.rank)
  reducesTo_S32768x8192_S_d0_1 : S32768x8192.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S32768x64 .f32) (main_arg1 : FVec F S32768x8192 .f32) (main_arg2 : FVec F S64x64 .f32) (main_arg3 : FVec F S64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S32768x8192 .f32 := Host.absf main_arg1
  let main_cst_0 : FVec F S_ .f32 := constant S_ .f32 0x7F800000#32
  let main_v5 : FVec F S32768x8192 .f32 := broadcastInDim S32768x8192 ![] bcast_S_S32768x8192 main_cst_0
  let main_v6 : IVec S32768x8192 1 := cmpf .olt main_v4 main_v5
  let main_c_1 : IVec S_ 1 := constantI S_ 1 1#1
  let main_v7 : IVec S_ 1 := (fun x v => Host.reduce IntOp.andi x v reducesTo_S32768x8192_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S32768x64 : Shape := ⟨2, ![32768, 64]⟩
abbrev S32768x8192 : Shape := ⟨2, ![32768, 8192]⟩
abbrev S64x64 : Shape := ⟨2, ![64, 64]⟩
abbrev S64 : Shape := ⟨1, ![64]⟩
abbrev S32768 : Shape := ⟨1, ![32768]⟩
abbrev S2x1x8192 : Shape := ⟨3, ![2, 1, 8192]⟩
abbrev S2x8192x64 : Shape := ⟨3, ![2, 8192, 64]⟩
abbrev S256x8192 : Shape := ⟨2, ![256, 8192]⟩
abbrev S256x64 : Shape := ⟨2, ![256, 64]⟩
abbrev S256 : Shape := ⟨1, ![256]⟩
abbrev S1x1x8192 : Shape := ⟨3, ![1, 1, 8192]⟩
abbrev S1x8192x64 : Shape := ⟨3, ![1, 8192, 64]⟩
abbrev S8192 : Shape := ⟨1, ![8192]⟩
abbrev S256x1 : Shape := ⟨2, ![256, 1]⟩
abbrev S8192x64 : Shape := ⟨2, ![8192, 64]⟩
abbrev S_ : Shape := ⟨0, ![]⟩
abbrev S8192x1 : Shape := ⟨2, ![8192, 1]⟩
abbrev S1x64 : Shape := ⟨2, ![1, 64]⟩

abbrev nBuf : Space → Nat
  | .hbm => 28
  | .vmem => 17
  | .smem => 0
  | _ => 0

abbrev bufTy : (tb : Table) → Fin (tcTables nBuf tb) → BufTy
  | .hbm, ⟨0, _⟩ => ⟨S32768x64, .f32⟩
  | .hbm, ⟨1, _⟩ => ⟨S32768x8192, .f32⟩
  | .hbm, ⟨2, _⟩ => ⟨S64x64, .f32⟩
  | .hbm, ⟨3, _⟩ => ⟨S64, .f32⟩
  | .hbm, ⟨4, _⟩ => ⟨S32768, .f32⟩
  | .hbm, ⟨5, _⟩ => ⟨S2x1x8192, .f32⟩
  | .hbm, ⟨6, _⟩ => ⟨S2x8192x64, .f32⟩
  | .hbm, ⟨7, _⟩ => ⟨S1x1x8192, .f32⟩
  | .hbm, ⟨8, _⟩ => ⟨S8192, .f32⟩
  | .hbm, ⟨9, _⟩ => ⟨S1x1x8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S1x8192x64, .f32⟩
  | .hbm, ⟨19, _⟩ => ⟨S8192x64, .f32⟩
  | .hbm, ⟨20, _⟩ => ⟨S1x8192x64, .f32⟩
  | .hbm, ⟨21, _⟩ => ⟨S8192x64, .f32⟩
  | .hbm, ⟨22, _⟩ => ⟨S8192x64, .f32⟩
  | .hbm, ⟨23, _⟩ => ⟨S8192x1, .f32⟩
  | .hbm, ⟨24, _⟩ => ⟨S8192x64, .f32⟩
  | .hbm, ⟨25, _⟩ => ⟨S8192x64, .f32⟩
  | .hbm, ⟨26, _⟩ => ⟨S8192x64, .bf16⟩
  | .hbm, ⟨27, _⟩ => ⟨S32768x64, .f32⟩
  | .local _ .vmem, ⟨0, _⟩ => ⟨S256x8192, .f32⟩
  | .local _ .vmem, ⟨1, _⟩ => ⟨S256x8192, .f32⟩
  | .local _ .vmem, ⟨2, _⟩ => ⟨S256x64, .f32⟩
  | .local _ .vmem, ⟨3, _⟩ => ⟨S256x64, .f32⟩
  | .local _ .vmem, ⟨4, _⟩ => ⟨S64x64, .f32⟩
  | .local _ .vmem, ⟨5, _⟩ => ⟨S256, .f32⟩
  | .local _ .vmem, ⟨6, _⟩ => ⟨S256, .f32⟩
  | .local _ .vmem, ⟨7, _⟩ => ⟨S1x1x8192, .f32⟩
  | .local _ .vmem, ⟨8, _⟩ => ⟨S1x8192x64, .f32⟩
  | .local _ .vmem, ⟨9, _⟩ => ⟨S256x8192, .f32⟩
  | .local _ .vmem, ⟨10, _⟩ => ⟨S256x8192, .f32⟩
  | .local _ .vmem, ⟨11, _⟩ => ⟨S8192x64, .bf16⟩
  | .local _ .vmem, ⟨12, _⟩ => ⟨S256, .f32⟩
  | .local _ .vmem, ⟨13, _⟩ => ⟨S256, .f32⟩
  | .local _ .vmem, ⟨14, _⟩ => ⟨S64, .f32⟩
  | .local _ .vmem, ⟨15, _⟩ => ⟨S256x64, .f32⟩
  | .local _ .vmem, ⟨16, _⟩ => ⟨S256x64, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  ![v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x8192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1x1x8192_S1x1x8192_0_0_0 : ∀ a, (![0, 0, 0] : Fin 3 → Nat) a + S1x1x8192.size a ≤ S1x1x8192.size a
  h_S1x1x8192 : 0 < S1x1x8192.numel
  inb_S1x8192x64_S1x8192x64_0_0_0 : ∀ a, (![0, 0, 0] : Fin 3 → Nat) a + S1x8192x64.size a ≤ S1x8192x64.size a
  h_S1x8192x64 : 0 < S1x8192x64.numel
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  inb_S256_S256_0 : ∀ a, (![0] : Fin 1 → Nat) a + S256.size a ≤ S256.size a
  h_S256 : 0 < S256.numel
  reduces_S256x8192_S8192 : S256x8192.Reduces [0] S8192
  shapeCasts_S1x1x8192_S1x1x8192 : S1x1x8192.ShapeCasts S1x1x8192
  shapeCasts_S8192_S1x1x8192 : S8192.ShapeCasts S1x1x8192
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S64x64_S64x64_0_0 : ∀ a, (![0, 0] : Fin 2 → Nat) a + S64x64.size a ≤ S64x64.size a
  h_S64x64 : 0 < S64x64.numel
  shapeCasts_S256_S256x1 : S256.ShapeCasts S256x1
  broadcasts_S256x1_S256x64 : S256x1.Broadcasts S256x64
  shapeCasts_S1x8192x64_S1x8192x64 : S1x8192x64.ShapeCasts S1x8192x64
  shapeCasts_S8192x64_S1x8192x64 : S8192x64.ShapeCasts S1x8192x64
  slices_S2x1x8192_S1x1x8192_0_0_0 : S2x1x8192.Slices ![0, 0, 0] S1x1x8192
  shapeCasts_S1x1x8192_S8192 : S1x1x8192.ShapeCasts S8192
  slices_S2x1x8192_S1x1x8192_1_0_0 : S2x1x8192.Slices ![1, 0, 0] S1x1x8192
  bcast_S_S8192 : S_.BroadcastsInDim S8192 (![] : Fin 0 → Fin S8192.rank)
  slices_S2x8192x64_S1x8192x64_0_0_0 : S2x8192x64.Slices ![0, 0, 0] S1x8192x64
  shapeCasts_S1x8192x64_S8192x64 : S1x8192x64.ShapeCasts S8192x64
  slices_S2x8192x64_S1x8192x64_1_0_0 : S2x8192x64.Slices ![1, 0, 0] S1x8192x64
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  shapeCasts_S256_S256 : S256.ShapeCasts S256
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  dot_S256x64_S64x64_S256x64_1_0_0_1_n_n_wf : DotDims.WF S256x64 S64x64 S256x64 [1] [0] [0] [1] [] []
  dot_S256x8192_S256x64_S8192x64_0_0_1_1_n_n_wf : DotDims.WF S256x8192 S256x64 S8192x64 [0] [0] [1] [1] [] []
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S32768x8192.size a
  hwx0_0 : ∀ i : grid0.Coords, EltTy.bits .f32 = 32 ∨ (Rect.block (s := S32768x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S32768x64.size a
  hwx0_1 : ∀ i : grid0.Coords, EltTy.bits .f32 = 32 ∨ (Rect.block (s := S32768x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S32768.size a
  hwx0_3 : ∀ i : grid0.Coords, EltTy.bits .f32 = 32 ∨ (Rect.block (s := S32768) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S2x1x8192.size a
  hwx0_4 : ∀ i : grid0.Coords, EltTy.bits .f32 = 32 ∨ (Rect.block (s := S2x1x8192) S1x1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192x64.size a ≤ S2x8192x64.size a
  hwx0_5 : ∀ i : grid0.Coords, EltTy.bits .f32 = 32 ∨ (Rect.block (s := S2x8192x64) S1x8192x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S32768x8192.size a
  hwx1_0 : ∀ i : grid1.Coords, EltTy.bits .f32 = 32 ∨ (Rect.block (s := S32768x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S32768.size a
  hwx1_2 : ∀ i : grid1.Coords, EltTy.bits .f32 = 32 ∨ (Rect.block (s := S32768) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S32768x64.size a
  hwx1_4 : ∀ i : grid1.Coords, EltTy.bits .f32 = 32 ∨ (Rect.block (s := S32768x64) S256x64.size (cc1_transform_4 i) (hinb1_4 i)).WholeWords (EltTy.packing .f32)

variable [Facts₀]

def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x8192_S256x64_S8192x64_0_0_1_1_n_n : DotDims S256x8192 S256x64 S8192x64 where
  lhsContracting := [0]
  rhsContracting := [0]
  lhsNonContracting := [1]
  rhsNonContracting := [1]
  lhsBatch := []
  rhsBatch := []
  wf := dot_S256x8192_S256x64_S8192x64_0_0_1_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x8192.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x8192x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x64 : Shape := ⟨2, ![32768, 64]⟩
abbrev S32768x8192 : Shape := ⟨2, ![32768, 8192]⟩
abbrev S64x64 : Shape := ⟨2, ![64, 64]⟩
abbrev S64 : Shape := ⟨1, ![64]⟩
abbrev S_ : Shape := ⟨0, ![]⟩
abbrev S32768 : Shape := ⟨1, ![32768]⟩
abbrev S8192 : Shape := ⟨1, ![8192]⟩
abbrev S32768x1 : Shape := ⟨2, ![32768, 1]⟩
abbrev S8192x32768 : Shape := ⟨2, ![8192, 32768]⟩
abbrev S8192x64 : Shape := ⟨2, ![8192, 64]⟩
abbrev S8192x1 : Shape := ⟨2, ![8192, 1]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S32768x8192, .f32⟩
  | .hbm, ⟨2, _⟩ => ⟨S64x64, .f32⟩
  | .hbm, ⟨3, _⟩ => ⟨S64, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S32768x64, .f32⟩
  | .hbm, ⟨22, _⟩ => ⟨S32768x1, .f32⟩
  | .hbm, ⟨23, _⟩ => ⟨S32768x64, .f32⟩
  | .hbm, ⟨24, _⟩ => ⟨S32768x64, .f32⟩
  | .hbm, ⟨25, _⟩ => ⟨S8192x32768, .f32⟩
  | .hbm, ⟨26, _⟩ => ⟨S8192x64, .f32⟩
  | .hbm, ⟨27, _⟩ => ⟨S8192x1, .f32⟩
  | .hbm, ⟨28, _⟩ => ⟨S8192x64, .f32⟩
  | .hbm, ⟨29, _⟩ => ⟨S8192x64, .f32⟩
  | .hbm, ⟨30, _⟩ => ⟨S32768x64, .f32⟩
  | .hbm, ⟨31, _⟩ => ⟨S32768x1, .f32⟩
  | .hbm, ⟨32, _⟩ => ⟨S32768x64, .f32⟩
  | .hbm, ⟨33, _⟩ => ⟨S32768x64, .f32⟩
  | .hbm, ⟨34, _⟩ => ⟨S1x64, .f32⟩
  | .hbm, ⟨35, _⟩ => ⟨S32768x64, .f32⟩
  | .hbm, ⟨36, _⟩ => ⟨S32768x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S32768x8192_S32768_d1 : S32768x8192.ReducesTo [1] S32768
  h_S_ : 0 < S_.numel
  bcast_S_S32768 : S_.BroadcastsInDim S32768 (![] : Fin 0 → Fin S32768.rank)
  reducesTo_S32768x8192_S8192_d0 : S32768x8192.ReducesTo [0] S8192
  bcast_S_S8192 : S_.BroadcastsInDim S8192 (![] : Fin 0 → Fin S8192.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  transposes_S32768x8192_S8192x32768_1_0 : S32768x8192.Transposes [1, 0] S8192x32768
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  dot_S32768x64_S64x64_S32768x64_1_0_0_1_n_n_wf : DotDims.WF S32768x64 S64x64 S32768x64 [1] [0] [0] [1] [] []
  dot_S8192x32768_S32768x64_S8192x64_1_0_0_1_n_n_wf : DotDims.WF S8192x32768 S32768x64 S8192x64 [1] [0] [0] [1] [] []
  dot_S32768x8192_S8192x64_S32768x64_1_0_0_1_n_n_wf : DotDims.WF S32768x8192 S8192x64 S32768x64 [1] [0] [0] [1] [] []

variable [Facts₀]

def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def dot_S8192x32768_S32768x64_S8192x64_1_0_0_1_n_n : DotDims S8192x32768 S32768x64 S8192x64 where
  lhsContracting := [1]
  rhsContracting := [0]
  lhsNonContracting := [0]
  rhsNonContracting := [1]
  lhsBatch := []
  rhsBatch := []
  wf := dot_S8192x32768_S32768x64_S8192x64_1_0_0_1_n_n_wf
def dot_S32768x8192_S8192x64_S32768x64_1_0_0_1_n_n : DotDims S32768x8192 S8192x64 S32768x64 where
  lhsContracting := [1]
  rhsContracting := [0]
  lhsNonContracting := [0]
  rhsNonContracting := [1]
  lhsBatch := []
  rhsBatch := []
  wf := dot_S32768x8192_S8192x64_S32768x64_1_0_0_1_n_n_wf

class Facts : Prop extends Facts₀ where

variable [Facts]
-- ==== Proof.KRun.lean ====
/-
  The idealized kernel's run with its result array named.

  @main is three segments: the first pallas_call, twenty host operations, the second pallas_call. The generated frame
  module folds the buffer contents through them (`Gen.W0` … `Gen.W3`) and proves every segment; its closing theorem
  keeps, of the last contents `Gen.W3`, only the four argument arrays. Here the same launch is read once more with
  the result buffer `%19` kept too: after every weakly fair execution it holds `Gen.W3` at that buffer, which is
  what the second pipeline's write-backs leave in its output array.
-/
import proofs.«145153_j87445534147336_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the argument arrays as launched. -/
theorem run_named : θ_run defs (onTc (τ := τ) (main (F := F))) ⟨m, fun _ => 0, ρ⟩ (fun r => ∀ c : Dev nD,
      r.2.mem ((c.tc : Thread nD τ).loc main_v19) = W3 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v19 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- The result buffer is the second pipeline's output array: what its write-backs leave there. -/
theorem W3_result (c : Dev nD) :
    W3 m ρ c (Proc.devRef .tc main_v19) = (dat1 (V2 m ρ) c).arrAt 4 cfg1.N := W3_arr m ρ c 4

end Cert.KernelIdeal.Named

end
-- ==== Proof.Region0Cases.lean ====
/-
  The first pipeline's body, case by case: what its stores leave in the three output buffers.

  The body has one conditional, taken at the first tile of each half of the rows (grid positions 0 and 64): there it
  zeroes the two accumulators before it adds to them. In either case the scalings' buffer receives one store, and
  each accumulator's buffer ends at "what it held (the zero block just stored, or what the tile before left) plus this
  tile's contribution". Each is read here as the body's arithmetic — the generated pure terms of the skeleton —
  applied to the input blocks.
-/
import proofs.«145153_j87445534147336_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Reg0

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## What each control case leaves in the three output buffers, as the body's arithmetic of the blocks -/

/-- Away from a half's first tile: the scalings of the tile's 256 rows. -/
theorem out_B_3 (c : Dev nD) (i : grid0.Coords) (arg2 : Memref sig .tc .vmem S256x8192 .f32) (harg2 : arg2.IsWhole) (arg3 : Memref sig .tc .vmem S256x64 .f32) (harg3 : arg3.IsWhole) (arg4 : Memref sig .tc .vmem S64x64 .f32) (harg4 : arg4.IsWhole) (arg5 : Memref sig .tc .vmem S256 .f32) (harg5 : arg5.IsWhole) (arg6 : Memref sig .tc .vmem S1x1x8192 .f32) (harg6 : arg6.IsWhole) (arg7 : Memref sig .tc .vmem S1x8192x64 .f32) (harg7 : arg7.IsWhole) (hc0 : ¬cond0_0 i) (x0 : Vec F S256x8192 .f32) (x1 : Vec F S256x64 .f32) (x2 : Vec F S64x64 .f32) (xo4 : Vec F S1x1x8192 .f32) (xo5 : Vec F S1x8192x64 .f32) :
    out0_B_3 c i arg2 harg2 arg3 harg3 arg4 harg4 arg5 harg5 arg6 harg6 arg7 harg7 hc0 x0 x1 x2 xo4 xo5 = k0_pay4 x0 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  rw [View.canon_unit_zero hz1]
  simp only [View.readAt_eq_ld, harg2.read_unread, View.ld_unit_zero (S := S256x8192) hz2]

/-- Away from a half's first tile: the running column sums `xo4` plus the tile's. -/
theorem out_B_4 (c : Dev nD) (i : grid0.Coords) (arg2 : Memref sig .tc .vmem S256x8192 .f32) (harg2 : arg2.IsWhole) (arg3 : Memref sig .tc .vmem S256x64 .f32) (harg3 : arg3.IsWhole) (arg4 : Memref sig .tc .vmem S64x64 .f32) (harg4 : arg4.IsWhole) (arg5 : Memref sig .tc .vmem S256 .f32) (harg5 : arg5.IsWhole) (arg6 : Memref sig .tc .vmem S1x1x8192 .f32) (harg6 : arg6.IsWhole) (arg7 : Memref sig .tc .vmem S1x8192x64 .f32) (harg7 : arg7.IsWhole) (hc0 : ¬cond0_0 i) (x0 : Vec F S256x8192 .f32) (x1 : Vec F S256x64 .f32) (x2 : Vec F S64x64 .f32) (xo4 : Vec F S1x1x8192 .f32) (xo5 : Vec F S1x8192x64 .f32) :
    out0_B_4 c i arg2 harg2 arg3 harg3 arg4 harg4 arg5 harg5 arg6 harg6 arg7 harg7 hc0 x0 x1 x2 xo4 xo5 = k0_pay5 x0 xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  rw [View.canon_unit_zero hz3]
  simp only [View.readAt_eq_ld, harg2.read_unread, harg6.read_unread, View.ld_unit_zero (S := S256x8192) hz2, View.ld_unit_zero (S := S1x1x8192) hz3]

/-- Away from a half's first tile: the running partial product `xo5` plus the tile's. -/
theorem out_B_5 (c : Dev nD) (i : grid0.Coords) (arg2 : Memref sig .tc .vmem S256x8192 .f32) (harg2 : arg2.IsWhole) (arg3 : Memref sig .tc .vmem S256x64 .f32) (harg3 : arg3.IsWhole) (arg4 : Memref sig .tc .vmem S64x64 .f32) (harg4 : arg4.IsWhole) (arg5 : Memref sig .tc .vmem S256 .f32) (harg5 : arg5.IsWhole) (arg6 : Memref sig .tc .vmem S1x1x8192 .f32) (harg6 : arg6.IsWhole) (arg7 : Memref sig .tc .vmem S1x8192x64 .f32) (harg7 : arg7.IsWhole) (hc0 : ¬cond0_0 i) (x0 : Vec F S256x8192 .f32) (x1 : Vec F S256x64 .f32) (x2 : Vec F S64x64 .f32) (xo4 : Vec F S1x1x8192 .f32) (xo5 : Vec F S1x8192x64 .f32) :
    out0_B_5 c i arg2 harg2 arg3 harg3 arg4 harg4 arg5 harg5 arg6 harg6 arg7 harg7 hc0 x0 x1 x2 xo4 xo5 = k0_pay1 (k0_pay6 xo5) (k0_pay7 x0 x1 x2) := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  rw [View.canon_unit_zero hz3]
  simp only [View.readAt_eq_ld, harg2.read_unread, harg3.read_unread, harg4.read_unread, harg7.read_unread, View.ld_unit_zero (S := S256x8192) hz2, View.ld_unit_zero (S := S256x64) hz2, View.ld_unit_zero (S := S64x64) hz2, View.ld_unit_zero (S := S1x8192x64) hz3]

/-- At a half's first tile: the scalings of the tile's 256 rows. -/
theorem out_A_3 (c : Dev nD) (i : grid0.Coords) (arg2 : Memref sig .tc .vmem S256x8192 .f32) (harg2 : arg2.IsWhole) (arg3 : Memref sig .tc .vmem S256x64 .f32) (harg3 : arg3.IsWhole) (arg4 : Memref sig .tc .vmem S64x64 .f32) (harg4 : arg4.IsWhole) (arg5 : Memref sig .tc .vmem S256 .f32) (harg5 : arg5.IsWhole) (arg6 : Memref sig .tc .vmem S1x1x8192 .f32) (harg6 : arg6.IsWhole) (arg7 : Memref sig .tc .vmem S1x8192x64 .f32) (harg7 : arg7.IsWhole) (hc0 : cond0_0 i) (x0 : Vec F S256x8192 .f32) (x1 : Vec F S256x64 .f32) (x2 : Vec F S64x64 .f32) :
    out0_A_3 c i arg2 harg2 arg3 harg3 arg4 harg4 arg5 harg5 arg6 harg6 arg7 harg7 hc0 x0 x1 x2 = k0_pay4 x0 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  rw [View.canon_unit_zero hz1]
  simp only [View.readAt_eq_ld, harg2.read_unread, View.ld_unit_zero (S := S256x8192) hz2]

/-- At a half's first tile the column sums restart: the zero block, read back, plus the tile's. -/
theorem out_A_4 (c : Dev nD) (i : grid0.Coords) (arg2 : Memref sig .tc .vmem S256x8192 .f32) (harg2 : arg2.IsWhole) (arg3 : Memref sig .tc .vmem S256x64 .f32) (harg3 : arg3.IsWhole) (arg4 : Memref sig .tc .vmem S64x64 .f32) (harg4 : arg4.IsWhole) (arg5 : Memref sig .tc .vmem S256 .f32) (harg5 : arg5.IsWhole) (arg6 : Memref sig .tc .vmem S1x1x8192 .f32) (harg6 : arg6.IsWhole) (arg7 : Memref sig .tc .vmem S1x8192x64 .f32) (harg7 : arg7.IsWhole) (hc0 : cond0_0 i) (x0 : Vec F S256x8192 .f32) (x1 : Vec F S256x64 .f32) (x2 : Vec F S64x64 .f32) :
    out0_A_4 c i arg2 harg2 arg3 harg3 arg4 harg4 arg5 harg5 arg6 harg6 arg7 harg7 hc0 x0 x1 x2 = k0_pay5 x0 k0_pay2 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x1x8192) hz3, View.readCov_unit_zero (S := S1x1x8192) _ hz3]
  simp only [View.readAt_eq_ld, harg2.read_unread, View.ld_unit_zero (S := S256x8192) hz2]

/-- At a half's first tile the partial product restarts: the zero block, read back, plus the tile's. -/
theorem out_A_5 (c : Dev nD) (i : grid0.Coords) (arg2 : Memref sig .tc .vmem S256x8192 .f32) (harg2 : arg2.IsWhole) (arg3 : Memref sig .tc .vmem S256x64 .f32) (harg3 : arg3.IsWhole) (arg4 : Memref sig .tc .vmem S64x64 .f32) (harg4 : arg4.IsWhole) (arg5 : Memref sig .tc .vmem S256 .f32) (harg5 : arg5.IsWhole) (arg6 : Memref sig .tc .vmem S1x1x8192 .f32) (harg6 : arg6.IsWhole) (arg7 : Memref sig .tc .vmem S1x8192x64 .f32) (harg7 : arg7.IsWhole) (hc0 : cond0_0 i) (x0 : Vec F S256x8192 .f32) (x1 : Vec F S256x64 .f32) (x2 : Vec F S64x64 .f32) :
    out0_A_5 c i arg2 harg2 arg3 harg3 arg4 harg4 arg5 harg5 arg6 harg6 arg7 harg7 hc0 x0 x1 x2 = k0_pay1 (k0_pay6 k0_pay3) (k0_pay7 x0 x1 x2) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x8192x64) hz3, View.readCov_unit_zero (S := S1x8192x64) _ hz3]
  simp only [View.readAt_eq_ld, harg2.read_unread, harg3.read_unread, harg4.read_unread, View.ld_unit_zero (S := S256x8192) hz2, View.ld_unit_zero (S := S256x64) hz2, View.ld_unit_zero (S := S64x64) hz2]

end Cert.KernelIdeal.Reg0
end
-- ==== Proof.Spec.lean ====
/-
  The hypergraph convolution, as one function of its four argument arrays, on the extended reals.

  With incidence weights `H` (vertices × hyperedges), features `X`, a weight matrix `W` and a bias `b`:
    * the vertex scaling  `dv n = 1 / √(∑ₑ H n e + ε)`  and the hyperedge scaling  `de e = 1 / (∑ₙ H n e + ε)`;
    * the scaled features `msg n f = dv n · ∑ₖ X n k · W k f`;
    * gathered on the hyperedges, `edge e f = ∑ₙ H n e · msg n f`, and scaled, `edgeS e f = de e · edge e f`;
    * scattered back to the vertices: `out n f = dv n · (∑ₑ H n e · edgeS e f) + b f`.
  The two programs compute exactly these sums; they differ only in how the sums over the 32768 vertices are
  grouped (two halves of 64 tiles of 256 rows against one sum), which addition on the extended reals, being
  commutative and associative, does not see.
-/
import Idealize.ShloMosaic.PureOps.Ideal
import Mathlib.Algebra.BigOperators.Fin

noncomputable section

namespace Cert.Hyper

open Idealize.ShloMosaic

/-- The regularizer `ε`: the single-precision word nearest to `1e-5`, the same word in both programs. -/
abbrev eps : EReal := Ideal.ofBits .f32 0x3727C5AC#32
/-- The single-precision word of `1`. -/
abbrev one : EReal := Ideal.ofBits .f32 0x3F800000#32

/-- A vertex scaling from its degree `s`: `1 / √(s + ε)`. -/
def dvOf (s : EReal) : EReal := Ideal.div one (Ideal.sqrt (s + eps))
/-- A hyperedge scaling from its degree `s`: `1 / (s + ε)`. -/
def deOf (s : EReal) : EReal := Ideal.div one (s + eps)

variable (H : Fin 32768 → Fin 8192 → EReal) (X : Fin 32768 → Fin 64 → EReal) (W : Fin 64 → Fin 64 → EReal)
  (b : Fin 64 → EReal)

/-- The scaling of vertex `n`. -/
def dv (n : Fin 32768) : EReal := dvOf (∑ e : Fin 8192, H n e)
/-- The scaling of hyperedge `e`. -/
def de (e : Fin 8192) : EReal := deOf (∑ n : Fin 32768, H n e)
/-- Vertex `n`'s projected and scaled features. -/
def msg (n : Fin 32768) (f : Fin 64) : EReal := dv H n * ∑ k : Fin 64, X n k * W k f
/-- What hyperedge `e` gathers from its vertices. -/
def edge (e : Fin 8192) (f : Fin 64) : EReal := ∑ n : Fin 32768, H n e * msg H X W n f
/-- The same, scaled by the hyperedge. -/
def edgeS (e : Fin 8192) (f : Fin 64) : EReal := de H e * edge H X W e f
/-- The result at vertex `n`, feature `f`. -/
def out (n : Fin 32768) (f : Fin 64) : EReal := dv H n * (∑ e : Fin 8192, H n e * edgeS H X W e f) + b f

end Cert.Hyper

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.Payload0.lean ====
/-
  The body arithmetic of the first call, read one entry at a time on the extended reals.

  On a block `B` of 256 rows and 8192 columns of the incidence weights, with the matching 256 rows `X` of the
  features and the weight matrix `W`, the body forms
    * the row scalings  `1 / √(∑ₑ B r e + ε)`;
    * the running column sums plus this block's column sums  `∑ᵣ B r e`;
    * the block's transposed product  `∑ᵣ B r e · (scaling r · ∑ₖ X r k · W k f)`,
  and the two zero splats the accumulators start from. The narrowing casts are the identity on the extended
  reals, and the layout casts only rename indices.
-/
import proofs.«145153_j87445534147336_2_alg».proof.Proof.Gen.KernelIdeal.Skeleton
import proofs.«145153_j87445534147336_2_alg».proof.Proof.Spec
import proofs.«145153_j87445534147336_2_alg».proof.Proof.LibPlainDot
import proofs.«145153_j87445534147336_2_alg».proof.Proof.LibKeepdims
import proofs.«145153_j87445534147336_2_alg».proof.Proof.LibRank3
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Pay0

/-! ## Two general readings: a sum over the first axis, and a vector under two leading unit axes -/

/-- The sum of an `[a, b]` matrix over its first axis, at column `j`. -/
theorem sum_first2 {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) :=
  (Ideal.multiReduction_add_single src acc h hφ hacc (ix1 j)).trans
    (Finset.sum_congr rfl fun i _ => congrArg src (funext fun d => Fin.ext (by
      match d with | ⟨0, _⟩ => rfl | ⟨1, _⟩ => rfl)))

/-- An `[a]` array cast to `[1, 1, a]` reads, at `(u, v, j)`, the operand at `j`. -/
theorem shapeCast_a_11a_apply {α : Type} {a : ℕ} (x : (⟨1, ![a]⟩ : Shape).Idx → α)
    (h : (⟨1, ![a]⟩ : Shape).ShapeCasts ⟨3, ![1, 1, a]⟩) (u v : Fin 1) (j : Fin a) :
    shapeCast ⟨3, ![1, 1, a]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * a + j.val
    rw [hu, hv]
    show j.val = 0 * a + j.val
    rw [Nat.zero_mul, Nat.zero_add])

/-! ## The one-line payloads -/

theorem pay1_apply (v29 v30 : FVec Ideal S1x8192x64 .f32) (j : S1x8192x64.Idx) : k0_pay1 (F := Ideal) v29 v30 j = v29 j + v30 j := rfl

theorem pay6_eq (v28 : Vec Ideal S1x8192x64 .f32) : k0_pay6 (F := Ideal) v28 = v28 := by
  unfold k0_pay6
  exact shapeCast_self v28 _

theorem pay2_apply (j : S1x1x8192.Idx) : k0_pay2 (F := Ideal) j = 0 := by
  unfold k0_pay2
  show Ideal.ofBits .f32 0x00000000#32 = 0
  exact Ideal.ofBits_zero_f32

theorem pay3_apply (j : S1x8192x64.Idx) : k0_pay3 (F := Ideal) j = 0 := by
  unfold k0_pay3
  show Ideal.ofBits .f32 0x00000000#32 = 0
  exact Ideal.ofBits_zero_f32

/-! ## The row scalings and the column sums -/

theorem pay4_apply (v3 : Vec Ideal S256x8192 .f32) (r : Fin 256) :
    k0_pay4 (F := Ideal) v3 (ix1 r) = Cert.Hyper.dvOf (∑ e : Fin 8192, v3 (ix2 r e)) := by
  have h := Cert.LibRank3.sum_last2 v3 0x00000000#32 Facts₀.reduces_S256x8192_S256 (.inl rfl) rfl r
  unfold k0_pay4 Cert.Hyper.dvOf
  exact congrArg (fun s => Ideal.div Cert.Hyper.one (Ideal.sqrt (s + Cert.Hyper.eps))) h

theorem pay5_apply (v3 : Vec Ideal S256x8192 .f32) (v12 : Vec Ideal S1x1x8192 .f32) (e : Fin 8192) :
    k0_pay5 (F := Ideal) v3 v12 (ix3 (0 : Fin 1) (0 : Fin 1) e) = v12 (ix3 (0 : Fin 1) (0 : Fin 1) e) + ∑ r : Fin 256, v3 (ix2 r e) := by
  unfold k0_pay5
  exact congrArg₂ (· + ·) (congrFun (shapeCast_self v12 _) _)
    ((shapeCast_a_11a_apply _ _ 0 0 e).trans (sum_first2 v3 0x00000000#32 _ (.inl rfl) rfl e))

/-! ## The transposed product -/

/-- The left operand's index of the transposed product off its contracted axis: the output's row coordinate. -/
theorem lhsT_1 (i : S8192x64.Idx) (q : dot_S256x8192_S256x64_S8192x64_0_0_1_1_n_n.contr.Idx) :
    (dot_S256x8192_S256x64_S8192x64_0_0_1_1_n_n.lhsIdx i q 1).val = (i 0).val := by
  unfold DotDims.lhsIdx
  rw [dif_neg (show ¬(1 : Fin S256x8192.rank) ∈ dot_S256x8192_S256x64_S8192x64_0_0_1_1_n_n.lhsBatch by decide), dif_pos (show (1 : Fin S256x8192.rank) ∈ dot_S256x8192_S256x64_S8192x64_0_0_1_1_n_n.lhsNonContracting by decide)]
  rfl

/-- The right operand's index of the transposed product off its contracted axis: the output's column coordinate. -/
theorem rhsT_1 (i : S8192x64.Idx) (q : dot_S256x8192_S256x64_S8192x64_0_0_1_1_n_n.contr.Idx) :
    (dot_S256x8192_S256x64_S8192x64_0_0_1_1_n_n.rhsIdx i q 1).val = (i 1).val := by
  unfold DotDims.rhsIdx
  rw [dif_neg (show ¬(1 : Fin S256x64.rank) ∈ dot_S256x8192_S256x64_S8192x64_0_0_1_1_n_n.rhsBatch by decide), dif_pos (show (1 : Fin S256x64.rank) ∈ dot_S256x8192_S256x64_S8192x64_0_0_1_1_n_n.rhsNonContracting by decide)]
  rfl

/-- A product contracting the ROWS of both operands, into the zero splat, at entry `(e, f)`: the sum over the 256
    rows `r` of `l (r, e) · rr (r, f)`. -/
theorem matmulT_apply {φ₁ φ₂ : FTy} (l : FVec Ideal S256x8192 φ₁) (rr : FVec Ideal S256x64 φ₂) (e : Fin 8192) (f : Fin 64) :
    matmul dot_S256x8192_S256x64_S8192x64_0_0_1_1_n_n none l rr (constant (F := Ideal) S8192x64 .f32 0x00000000#32) (ix2 e f)
      = ∑ r : Fin 256, l (ix2 r e) * rr (ix2 r f) := by
  simp only [matmul]
  rw [Ideal.matmul_constant_zero_apply, ← Equiv.sum_comp (contrEquiv1 dot_S256x8192_S256x64_S8192x64_0_0_1_1_n_n 256 rfl rfl).symm]
  refine Finset.sum_congr rfl fun q _ => ?_
  have hq := contrEquiv1_symm_val dot_S256x8192_S256x64_S8192x64_0_0_1_1_n_n 256 rfl rfl q
  have el : dot_S256x8192_S256x64_S8192x64_0_0_1_1_n_n.lhsIdx (ix2 e f) ((contrEquiv1 dot_S256x8192_S256x64_S8192x64_0_0_1_1_n_n 256 rfl rfl).symm q) = ix2 q e :=
    funext fun a => Fin.ext (by
      match a with
      | ⟨0, _⟩ => exact (dot_S256x8192_S256x64_S8192x64_0_0_1_1_n_n.lhsIdx_val_of_single rfl _ _).trans hq
      | ⟨1, _⟩ => exact lhsT_1 _ _)
  have er : dot_S256x8192_S256x64_S8192x64_0_0_1_1_n_n.rhsIdx (ix2 e f) ((contrEquiv1 dot_S256x8192_S256x64_S8192x64_0_0_1_1_n_n 256 rfl rfl).symm q) = ix2 q f :=
    funext fun a => Fin.ext (by
      match a with
      | ⟨0, _⟩ => exact (dot_S256x8192_S256x64_S8192x64_0_0_1_1_n_n.rhsIdx_val_of_single rfl _ _).trans hq
      | ⟨1, _⟩ => exact rhsT_1 _ _)
  rw [el, er]

theorem pay7_apply (v3 : Vec Ideal S256x8192 .f32) (v18 : Vec Ideal S256x64 .f32) (v20 : Vec Ideal S64x64 .f32) (e : Fin 8192) (f : Fin 64) :
    k0_pay7 (F := Ideal) v3 v18 v20 (ix3 (0 : Fin 1) e f)
      = ∑ r : Fin 256, v3 (ix2 r e) * (Cert.Hyper.dvOf (∑ e' : Fin 8192, v3 (ix2 r e')) * ∑ k : Fin 64, v18 (ix2 r k) * v20 (ix2 k f)) := by
  unfold k0_pay7
  refine (shapeCast_ab_1ab_apply _ _ 0 e f).trans ?_
  refine (matmulT_apply _ _ e f).trans ?_
  refine Finset.sum_congr rfl fun r _ => ?_
  refine congrArg (v3 (ix2 r e) * ·) ?_
  refine congrArg₂ (fun a b : EReal => a * b) ?_ ?_
  · exact (Cert.LibKeepdims.broadcastTo_a1_ab_apply _ _ r f).trans
      ((Cert.LibKeepdims.shapeCast_a_a1_apply _ _ r 0).trans (pay4_apply v3 r))
  · exact Cert.PlainDot.matmul_zero_ix2 _ rfl none _ _ r f

end Cert.KernelIdeal.Pay0

end
-- ==== Proof.Region0.lean ====
/-
  The first pipeline's three output arrays, as functions of `H`, `X` and `W`.

  The grid has 128 positions, two halves of 64; position `t` works on row tile `t` (rows `256 t … 256 t + 255`).
  The scalings' array is written tile by tile. Each of the two accumulators is a running sum within a half: the
  first position of a half stores "zero plus its tile's contribution", every later one "what the position before
  left plus its own", and the half's last position writes the block back to slab `t / 64`. By induction on the
  position the buffer holds, after position `n`, the sum of the contributions of the tiles from the first of
  `n`'s half up to `n`; at a half's last position that is the half's whole sum.
-/
import proofs.«145153_j87445534147336_2_alg».proof.Proof.Gen.KernelIdeal.Frame
import proofs.«145153_j87445534147336_2_alg».proof.Proof.Region0Cases
import proofs.«145153_j87445534147336_2_alg».proof.Proof.Payload0
import proofs.«145153_j87445534147336_2_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Reg0

open Cert.KernelIdeal Cert.KernelIdeal.Gen Idealize.ShloMosaic.ValueIdx Cert.KernelIdeal.Pay0

variable (V : (c : Dev nD) → (b : Ref sig .tc) → Buf (Elt Ideal) ((c : Thread nD τ).loc b)) (c : Dev nD)

/-! ## Where the windows sit: block indices over the grid, and blocks read by rows -/

/-- Grid position `t` (half `t / 64`, tile `t % 64` of the half) works on row tile `t` of `H` and `X`, on the whole of
    `W`, writes tile `t` of the scalings and accumulates into slab `t / 64` of the two partial arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val
    ∧ win0_4.index t (0 : Fin 3) = t.val / 64 ∧ win0_4.index t (1 : Fin 3) = 0 ∧ win0_4.index t (2 : Fin 3) = 0
    ∧ win0_5.index t (0 : Fin 3) = t.val / 64 ∧ win0_5.index t (1 : Fin 3) = 0 ∧ win0_5.index t (2 : Fin 3) = 0 :=
  (by decide +kernel : ∀ t : Fin grid0.N, _)

theorem tile_row_lt (t : Fin cfg0.N) (r : Fin 256) : t.val * 256 + r.val < 32768 := by
  have hN : cfg0.N = 128 := N_0
  have := t.isLt; have := r.isLt; omega

/-- Row `r` of the tile of `H` at position `t` is row `256 t + r` of `H`. -/
theorem iblk_H (t : Fin cfg0.N) (r : Fin 256) (e : Fin 8192) :
    (iblk0 V c 0 t : S256x8192.Idx → EReal) (ix2 r e)
      = (V c main_arg1 : S32768x8192.Idx → EReal) (ix2 (⟨t.val * 256 + r.val, tile_row_lt t r⟩ : Fin 32768) e) := by
  obtain ⟨e0, e1, -⟩ := idx_facts t
  unfold iblk0
  rw [View.read_apply]
  show V c main_arg1 _ = V c main_arg1 _
  congr 1
  funext a
  apply Fin.ext
  match a with
  | ⟨0, _⟩ => show win0_0.index t (0 : Fin 2) * 256 + 1 * r.val = t.val * 256 + r.val; rw [e0]; omega
  | ⟨1, _⟩ => show win0_0.index t (1 : Fin 2) * 8192 + 1 * e.val = e.val; rw [e1]; omega

/-- Row `r` of the tile of `X` at position `t` is row `256 t + r` of `X`. -/
theorem iblk_X (t : Fin cfg0.N) (r : Fin 256) (k : Fin 64) :
    (iblk0 V c 1 t : S256x64.Idx → EReal) (ix2 r k)
      = (V c main_arg0 : S32768x64.Idx → EReal) (ix2 (⟨t.val * 256 + r.val, tile_row_lt t r⟩ : Fin 32768) k) := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t (0 : Fin 2) * 256 + 1 * r.val = t.val * 256 + r.val; rw [e0]; omega
  | ⟨1, _⟩ => show win0_1.index t (1 : Fin 2) * 64 + 1 * k.val = k.val; rw [e1]; omega

/-- The one block of `W` is `W`. -/
theorem iblk_W (t : Fin cfg0.N) (k : Fin 64) (f : Fin 64) :
    (iblk0 V c 2 t : S64x64.Idx → EReal) (ix2 k f) = (V c main_arg2 : S64x64.Idx → EReal) (ix2 k f) := by
  obtain ⟨-, -, -, -, e0, e1, -⟩ := idx_facts t
  unfold iblk0
  rw [View.read_apply]
  show V c main_arg2 _ = V c main_arg2 _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * f.val = f.val; rw [e1]; omega

/-! ## The tiles' contributions and the running sums -/

variable (HA : S32768x8192.Idx → EReal) (XA : S32768x64.Idx → EReal) (WA : S64x64.Idx → EReal)

theorem tile_lt {p : ℕ} (h : p < 128) (r : Fin 256) : p * 256 + r.val < 32768 := by have := r.isLt; omega

/-- What row `n` contributes to hyperedge `e`'s gathered feature `f`. -/
def term (n : Fin 32768) (e : Fin 8192) (f : Fin 64) : EReal :=
  HA (ix2 n e) * (Cert.Hyper.dvOf (∑ e' : Fin 8192, HA (ix2 n e')) * ∑ k : Fin 64, XA (ix2 n k) * WA (ix2 k f))

/-- Row tile `p`'s column sums (nothing past the last tile). -/
def colT (p : ℕ) (e : Fin 8192) : EReal :=
  if h : p < 128 then ∑ r : Fin 256, HA (ix2 (⟨p * 256 + r.val, tile_lt h r⟩ : Fin 32768) e) else 0

/-- Row tile `p`'s share of the gather (nothing past the last tile). -/
def prodT (p : ℕ) (e : Fin 8192) (f : Fin 64) : EReal :=
  if h : p < 128 then ∑ r : Fin 256, term HA XA WA (⟨p * 256 + r.val, tile_lt h r⟩ : Fin 32768) e f else 0

variable (hH : (V c main_arg1 : S32768x8192.Idx → EReal) = HA) (hX : (V c main_arg0 : S32768x64.Idx → EReal) = XA)
  (hW : (V c main_arg2 : S64x64.Idx → EReal) = WA)

include hH in
/-- One position's step of the column sums: what the buffer held plus the tile's column sums. -/
theorem step4 (t : Fin cfg0.N) (v12 : Vec Ideal S1x1x8192 .f32) (e : Fin 8192) :
    k0_pay5 (F := Ideal) (iblk0 V c 0 t) v12 (ix3 (0 : Fin 1) (0 : Fin 1) e)
      = v12 (ix3 (0 : Fin 1) (0 : Fin 1) e) + colT HA t.val e := by
  have hN : t.val < 128 := lt_of_lt_of_eq t.isLt (show cfg0.N = 128 from N_0)
  refine (pay5_apply (iblk0 V c 0 t) v12 e).trans (congrArg (v12 (ix3 (0 : Fin 1) (0 : Fin 1) e) + ·) ?_)
  unfold colT
  rw [dif_pos hN]
  exact Finset.sum_congr rfl fun r _ => (iblk_H V c t r e).trans (congrFun hH _)

include hH hX hW in
/-- One position's step of the gather: what the buffer held plus the tile's share. -/
theorem step5 (t : Fin cfg0.N) (v28 : Vec Ideal S1x8192x64 .f32) (e : Fin 8192) (f : Fin 64) :
    k0_pay1 (F := Ideal) (k0_pay6 v28) (k0_pay7 (iblk0 V c 0 t) (iblk0 V c 1 t) (iblk0 V c 2 t)) (ix3 (0 : Fin 1) e f)
      = v28 (ix3 (0 : Fin 1) e f) + prodT HA XA WA t.val e f := by
  have hN : t.val < 128 := lt_of_lt_of_eq t.isLt (show cfg0.N = 128 from N_0)
  refine (pay1_apply (k0_pay6 v28) (k0_pay7 (iblk0 V c 0 t) (iblk0 V c 1 t) (iblk0 V c 2 t)) (ix3 (0 : Fin 1) e f)).trans ?_
  rw [pay6_eq]
  refine congrArg (v28 (ix3 (0 : Fin 1) e f) + ·) ?_
  refine (pay7_apply (iblk0 V c 0 t) (iblk0 V c 1 t) (iblk0 V c 2 t) e f).trans ?_
  unfold prodT
  rw [dif_pos hN]
  refine Finset.sum_congr rfl fun r _ => ?_
  unfold term
  rw [(iblk_H V c t r e).trans (congrFun hH _)]
  refine congrArg (HA (ix2 (⟨t.val * 256 + r.val, tile_row_lt t r⟩ : Fin 32768) e) * ·) ?_
  exact congrArg₂ (fun (x y : EReal) => x * y)
    (congrArg Cert.Hyper.dvOf (Finset.sum_congr rfl fun e' _ => (iblk_H V c t r e').trans (congrFun hH _)))
    (Finset.sum_congr rfl fun k _ => congrArg₂ (fun (x y : EReal) => x * y)
      ((iblk_X V c t r k).trans (congrFun hX _)) ((iblk_W V c t k f).trans (congrFun hW _)))

/-- The scalings' buffer after any position: the body's scalings of that position's tile of `H`. -/
theorem out3_eq (t : Fin cfg0.N) : (outsAt0 V c t.val t.isLt).1 = k0_pay4 (iblk0 V c 0 t) := by
  by_cases h0 : t.val % 64 = 0
  · rw [outsAt0_A V c t h0]
    dsimp only
    exact out_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) _ _

include hH in
/-- The column sums' buffer after position `n`: the sum of the column sums of the tiles of `n`'s half up to `n`. -/
theorem acc4 : ∀ (n : ℕ) (hn : n < cfg0.N) (e : Fin 8192),
    ((outsAt0 V c n hn).2.1 : S1x1x8192.Idx → EReal) (ix3 (0 : Fin 1) (0 : Fin 1) e)
      = ∑ p ∈ Finset.Ico (n / 64 * 64) (n + 1), colT HA p e := by
  intro n
  induction n with
  | zero =>
    intro hn e
    rw [outsAt0_A V c ⟨0, hn⟩ rfl]
    dsimp only
    rw [out_A_4, step4 V c HA hH ⟨0, hn⟩ (k0_pay2 (F := Ideal)) e, pay2_apply, zero_add]
    simp
  | succ k ih =>
    intro hn e
    by_cases h0 : (k + 1) % 64 = 0
    · rw [outsAt0_A V c ⟨k + 1, hn⟩ h0]
      dsimp only
      rw [out_A_4, step4 V c HA hH ⟨k + 1, hn⟩ (k0_pay2 (F := Ideal)) e, pay2_apply, zero_add]
      have hb : (k + 1) / 64 * 64 = k + 1 := by omega
      rw [hb, Nat.Ico_succ_singleton, Finset.sum_singleton]
    · rw [outsAt0_B V c ⟨k + 1, hn⟩ h0]
      dsimp only
      rw [out_B_4, step4 V c HA hH ⟨k + 1, hn⟩ _ e]
      have hb : (k + 1) / 64 * 64 = k / 64 * 64 := by omega
      have hle : k / 64 * 64 ≤ k + 1 := by omega
      rw [hb, Finset.sum_Ico_succ_top hle]
      exact congrArg (· + colT HA (k + 1) e) (ih (Nat.lt_of_succ_lt hn) e)

include hH hX hW in
/-- The gather's buffer after position `n`: the sum of the shares of the tiles of `n`'s half up to `n`. -/
theorem acc5 : ∀ (n : ℕ) (hn : n < cfg0.N) (e : Fin 8192) (f : Fin 64),
    ((outsAt0 V c n hn).2.2 : S1x8192x64.Idx → EReal) (ix3 (0 : Fin 1) e f)
      = ∑ p ∈ Finset.Ico (n / 64 * 64) (n + 1), prodT HA XA WA p e f := by
  intro n
  induction n with
  | zero =>
    intro hn e f
    rw [outsAt0_A V c ⟨0, hn⟩ rfl]
    dsimp only
    rw [out_A_5, step5 V c HA XA WA hH hX hW ⟨0, hn⟩ (k0_pay3 (F := Ideal)) e f, pay3_apply, zero_add]
    simp
  | succ k ih =>
    intro hn e f
    by_cases h0 : (k + 1) % 64 = 0
    · rw [outsAt0_A V c ⟨k + 1, hn⟩ h0]
      dsimp only
      rw [out_A_5, step5 V c HA XA WA hH hX hW ⟨k + 1, hn⟩ (k0_pay3 (F := Ideal)) e f, pay3_apply, zero_add]
      have hb : (k + 1) / 64 * 64 = k + 1 := by omega
      rw [hb, Nat.Ico_succ_singleton, Finset.sum_singleton]
    · rw [outsAt0_B V c ⟨k + 1, hn⟩ h0]
      dsimp only
      rw [out_B_5, step5 V c HA XA WA hH hX hW ⟨k + 1, hn⟩ _ e f]
      have hb : (k + 1) / 64 * 64 = k / 64 * 64 := by omega
      have hle : k / 64 * 64 ≤ k + 1 := by omega
      rw [hb, Finset.sum_Ico_succ_top hle]
      exact congrArg (· + prodT HA XA WA (k + 1) e f) (ih (Nat.lt_of_succ_lt hn) e f)

/-! ## From blocks to the arrays -/

/-- The scalings array: entry `n` is `1 / √(∑ₑ H n e + ε)`. -/
def G3 : S32768.Idx → EReal := fun i =>
  Cert.Hyper.dvOf (∑ e : Fin 8192, HA (ix2 (⟨(i 0).val, (i 0).isLt⟩ : Fin 32768) e))

/-- The per-half column sums: slab `cc`, column `e`, summed over the half's 64 tiles. -/
def G4 : S2x1x8192.Idx → EReal := fun i =>
  ∑ p ∈ Finset.Ico ((i 0).val * 64) ((i 0).val * 64 + 64), colT HA p (⟨(i 2).val, (i 2).isLt⟩ : Fin 8192)

/-- The per-half gathers: slab `cc`, hyperedge `e`, feature `f`, summed over the half's 64 tiles. -/
def G5 : S2x8192x64.Idx → EReal := fun i =>
  ∑ p ∈ Finset.Ico ((i 0).val * 64) ((i 0).val * 64 + 64),
    prodT HA XA WA p (⟨(i 1).val, (i 1).isLt⟩ : Fin 8192) (⟨(i 2).val, (i 2).isLt⟩ : Fin 64)

include hH in
/-- What position `t` writes back of the scalings is tile `t` of `G3`. -/
theorem flushed3 (t : Fin cfg0.N) :
    (dat0 V c).flushed 3 t = ((cfg0.win 3).blk t).view.read (Elt Ideal) (G3 HA) := by
  obtain ⟨-, -, -, -, -, -, e3, -⟩ := idx_facts t
  show (cfg0.win 3).cut (grid0.coords t) ((dat0 V c).after 3 t) = _
  rw [after0_3, out3_eq]
  funext y
  obtain ⟨r, rfl⟩ : ∃ r : Fin 256, y = ix1 r := ⟨y 0, eq_ix1 y⟩
  show k0_pay4 (F := Ideal) (iblk0 V c 0 t) (ix1 r) = G3 HA (((cfg0.win 3).blk t).view.emb (ix1 r))
  refine (pay4_apply (iblk0 V c 0 t) r).trans ?_
  unfold G3
  refine congrArg Cert.Hyper.dvOf (Finset.sum_congr rfl fun e _ => ?_)
  refine ((iblk_H V c t r e).trans (congrFun hH _)).trans ?_
  refine congrArg HA (congrArg (fun n : Fin 32768 => ix2 n e) (Fin.ext ?_))
  show t.val * 256 + r.val = win0_3.index t (0 : Fin 1) * 256 + 1 * r.val
  rw [e3]; omega

theorem mem_blk3 (t : Fin cfg0.N) (i : S32768.Idx) :
    i ∈ ((cfg0.win 3).blk t).view.set ↔ ∀ a : Fin 1, win0_3.index t a * S256.size a ≤ (i a).val ∧ (i a).val < win0_3.index t a * S256.size a + S256.size a := by
  show i ∈ ((View.whole main_v0_0).slice (win0_3.rect t)).set ↔ _
  rw [View.set_slice_whole, Rect.mem_set_unit]
  exact Iff.rfl

include hH in
/-- The scalings array after the first pipeline. -/
theorem final3 : (dat0 V c).arrAt 3 cfg0.N = G3 HA :=
  (dat0 V c).arrAt_eq_of_cover 3 (G3 HA) (fun t _ => flushed3 V c HA hH t) fun i => by
    have hN : cfg0.N = 128 := N_0
    have hi : (i 0).val < 32768 := (i 0).isLt
    let t : Fin cfg0.N := ⟨(i 0).val / 256, by omega⟩
    obtain ⟨-, -, -, -, -, -, e3, -⟩ := idx_facts t
    refine ⟨t, flush0_3 t, ?_⟩
    rw [mem_blk3]
    intro a
    match a with
    | ⟨0, _⟩ =>
      show win0_3.index t (0 : Fin 1) * 256 ≤ (i 0).val ∧ (i 0).val < win0_3.index t (0 : Fin 1) * 256 + 256
      rw [e3]
      show (i 0).val / 256 * 256 ≤ (i 0).val ∧ (i 0).val < (i 0).val / 256 * 256 + 256
      omega

include hH in
/-- What a half's last position writes back of the column sums is slab `t / 64` of `G4`. -/
theorem flushed4 (t : Fin cfg0.N) (hf : (cfg0.win 4).flush t = true) :
    (dat0 V c).flushed 4 t = ((cfg0.win 4).blk t).view.read (Elt Ideal) (G4 HA) := by
  have h63 : t.val % 64 = 63 := (flush0_4 t).mp hf
  obtain ⟨-, -, -, -, -, -, -, e0, e1, e2, -⟩ := idx_facts t
  show (cfg0.win 4).cut (grid0.coords t) ((dat0 V c).after 4 t) = _
  rw [after0_4]
  funext y
  obtain ⟨u, u', e, rfl⟩ : ∃ (u u' : Fin 1) (e : Fin 8192), y = ix3 u u' e := ⟨y 0, y 1, y 2, eq_ix3 y⟩
  obtain rfl : u = 0 := Subsingleton.elim _ _
  obtain rfl : u' = 0 := Subsingleton.elim _ _
  show ((outsAt0 V c t.val t.isLt).2.1 : S1x1x8192.Idx → EReal) (ix3 (0 : Fin 1) (0 : Fin 1) e) = G4 HA (((cfg0.win 4).blk t).view.emb (ix3 (0 : Fin 1) (0 : Fin 1) e))
  rw [acc4 V c HA hH t.val t.isLt e]
  unfold G4
  have a0 : ((((cfg0.win 4).blk t).view.emb (ix3 (0 : Fin 1) (0 : Fin 1) e)) 0).val = t.val / 64 := by
    show win0_4.index t (0 : Fin 3) * 1 + 1 * 0 = t.val / 64
    rw [e0]; omega
  have a2 : (⟨((((cfg0.win 4).blk t).view.emb (ix3 (0 : Fin 1) (0 : Fin 1) e)) 2).val, ((((cfg0.win 4).blk t).view.emb (ix3 (0 : Fin 1) (0 : Fin 1) e)) 2).isLt⟩ : Fin 8192) = e := by
    apply Fin.ext
    show win0_4.index t (2 : Fin 3) * 8192 + 1 * e.val = e.val
    rw [e2]; omega
  rw [a0, a2]
  have hb : t.val / 64 * 64 + 64 = t.val + 1 := by omega
  rw [hb]

theorem mem_blk4 (t : Fin cfg0.N) (i : S2x1x8192.Idx) :
    i ∈ ((cfg0.win 4).blk t).view.set ↔ ∀ a : Fin 3, win0_4.index t a * S1x1x8192.size a ≤ (i a).val ∧ (i a).val < win0_4.index t a * S1x1x8192.size a + S1x1x8192.size a := by
  show i ∈ ((View.whole main_v0_1).slice (win0_4.rect t)).set ↔ _
  rw [View.set_slice_whole, Rect.mem_set_unit]
  exact Iff.rfl

include hH in
/-- The per-half column sums after the first pipeline. -/
theorem final4 : (dat0 V c).arrAt 4 cfg0.N = G4 HA :=
  (dat0 V c).arrAt_eq_of_cover 4 (G4 HA) (fun t hf => flushed4 V c HA hH t hf) fun i => by
    have hN : cfg0.N = 128 := N_0
    have hi0 : (i 0).val < 2 := (i 0).isLt
    have hi1 : (i 1).val < 1 := (i 1).isLt
    have hi2 : (i 2).val < 8192 := (i 2).isLt
    let t : Fin cfg0.N := ⟨(i 0).val * 64 + 63, by omega⟩
    obtain ⟨-, -, -, -, -, -, -, e0, e1, e2, -⟩ := idx_facts t
    have ht : t.val = (i 0).val * 64 + 63 := rfl
    refine ⟨t, (flush0_4 t).mpr (by omega), ?_⟩
    rw [mem_blk4]
    intro a
    match a with
    | ⟨0, _⟩ =>
      show win0_4.index t (0 : Fin 3) * 1 ≤ (i 0).val ∧ (i 0).val < win0_4.index t (0 : Fin 3) * 1 + 1
      rw [e0, ht]; omega
    | ⟨1, _⟩ =>
      show win0_4.index t (1 : Fin 3) * 1 ≤ (i 1).val ∧ (i 1).val < win0_4.index t (1 : Fin 3) * 1 + 1
      rw [e1]; omega
    | ⟨2, _⟩ =>
      show win0_4.index t (2 : Fin 3) * 8192 ≤ (i 2).val ∧ (i 2).val < win0_4.index t (2 : Fin 3) * 8192 + 8192
      rw [e2]; omega

include hH hX hW in
/-- What a half's last position writes back of the gather is slab `t / 64` of `G5`. -/
theorem flushed5 (t : Fin cfg0.N) (hf : (cfg0.win 5).flush t = true) :
    (dat0 V c).flushed 5 t = ((cfg0.win 5).blk t).view.read (Elt Ideal) (G5 HA XA WA) := by
  have h63 : t.val % 64 = 63 := (flush0_5 t).mp hf
  obtain ⟨-, -, -, -, -, -, -, -, -, -, e0, e1, e2⟩ := idx_facts t
  show (cfg0.win 5).cut (grid0.coords t) ((dat0 V c).after 5 t) = _
  rw [after0_5]
  funext y
  obtain ⟨u, e, f, rfl⟩ : ∃ (u : Fin 1) (e : Fin 8192) (f : Fin 64), y = ix3 u e f := ⟨y 0, y 1, y 2, eq_ix3 y⟩
  obtain rfl : u = 0 := Subsingleton.elim _ _
  show ((outsAt0 V c t.val t.isLt).2.2 : S1x8192x64.Idx → EReal) (ix3 (0 : Fin 1) e f) = G5 HA XA WA (((cfg0.win 5).blk t).view.emb (ix3 (0 : Fin 1) e f))
  rw [acc5 V c HA XA WA hH hX hW t.val t.isLt e f]
  unfold G5
  have a0 : ((((cfg0.win 5).blk t).view.emb (ix3 (0 : Fin 1) e f)) 0).val = t.val / 64 := by
    show win0_5.index t (0 : Fin 3) * 1 + 1 * 0 = t.val / 64
    rw [e0]; omega
  have a1 : (⟨((((cfg0.win 5).blk t).view.emb (ix3 (0 : Fin 1) e f)) 1).val, ((((cfg0.win 5).blk t).view.emb (ix3 (0 : Fin 1) e f)) 1).isLt⟩ : Fin 8192) = e := by
    apply Fin.ext
    show win0_5.index t (1 : Fin 3) * 8192 + 1 * e.val = e.val
    rw [e1]; omega
  have a2 : (⟨((((cfg0.win 5).blk t).view.emb (ix3 (0 : Fin 1) e f)) 2).val, ((((cfg0.win 5).blk t).view.emb (ix3 (0 : Fin 1) e f)) 2).isLt⟩ : Fin 64) = f := by
    apply Fin.ext
    show win0_5.index t (2 : Fin 3) * 64 + 1 * f.val = f.val
    rw [e2]; omega
  rw [a0, a1, a2]
  have hb : t.val / 64 * 64 + 64 = t.val + 1 := by omega
  rw [hb]

theorem mem_blk5 (t : Fin cfg0.N) (i : S2x8192x64.Idx) :
    i ∈ ((cfg0.win 5).blk t).view.set ↔ ∀ a : Fin 3, win0_5.index t a * S1x8192x64.size a ≤ (i a).val ∧ (i a).val < win0_5.index t a * S1x8192x64.size a + S1x8192x64.size a := by
  show i ∈ ((View.whole main_v0_2).slice (win0_5.rect t)).set ↔ _
  rw [View.set_slice_whole, Rect.mem_set_unit]
  exact Iff.rfl

include hH hX hW in
/-- The per-half gathers after the first pipeline. -/
theorem final5 : (dat0 V c).arrAt 5 cfg0.N = G5 HA XA WA :=
  (dat0 V c).arrAt_eq_of_cover 5 (G5 HA XA WA) (fun t hf => flushed5 V c HA XA WA hH hX hW t hf) fun i => by
    have hN : cfg0.N = 128 := N_0
    have hi0 : (i 0).val < 2 := (i 0).isLt
    have hi1 : (i 1).val < 8192 := (i 1).isLt
    have hi2 : (i 2).val < 64 := (i 2).isLt
    let t : Fin cfg0.N := ⟨(i 0).val * 64 + 63, by omega⟩
    obtain ⟨-, -, -, -, -, -, -, -, -, -, e0, e1, e2⟩ := idx_facts t
    have ht : t.val = (i 0).val * 64 + 63 := rfl
    refine ⟨t, (flush0_5 t).mpr (by omega), ?_⟩
    rw [mem_blk5]
    intro a
    match a with
    | ⟨0, _⟩ =>
      show win0_5.index t (0 : Fin 3) * 1 ≤ (i 0).val ∧ (i 0).val < win0_5.index t (0 : Fin 3) * 1 + 1
      rw [e0, ht]; omega
    | ⟨1, _⟩ =>
      show win0_5.index t (1 : Fin 3) * 8192 ≤ (i 1).val ∧ (i 1).val < win0_5.index t (1 : Fin 3) * 8192 + 8192
      rw [e1]; omega
    | ⟨2, _⟩ =>
      show win0_5.index t (2 : Fin 3) * 64 ≤ (i 2).val ∧ (i 2).val < win0_5.index t (2 : Fin 3) * 64 + 64
      rw [e2]; omega

end Cert.KernelIdeal.Reg0
end
-- ==== Proof.Payload1.lean ====
/-
  The second kernel body's arithmetic read at an entry, at the ideal instance: the scaled product plus the bias,
  dv[:, None] * (H_block @ Z) + b[None, :], at entry (r, f).
-/
import proofs.«145153_j87445534147336_2_alg».proof.Proof.Gen.KernelIdeal.Skeleton
import proofs.«145153_j87445534147336_2_alg».proof.Proof.LibPlainDot
import proofs.«145153_j87445534147336_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Pay1

/-- The body's result at entry `(r, f)`: the row scale times the row-by-column product, plus the column's bias.
    The narrowing of the left operand is the identity on the extended reals, the two same-shape casts are the
    identity, the column `[256] → [256,1] → [256,64]` reads entry `r` and the row `[64] → [1,64] → [256,64]`
    reads entry `f`. -/
theorem k1_pay1_apply (v0 : Vec Ideal S256x8192 .f32) (v2 : Vec Ideal S8192x64 .bf16) (v5 : Vec Ideal S256 .f32) (v10 : Vec Ideal S64 .f32)
    (r : Fin 256) (f : Fin 64) :
    k1_pay1 (F := Ideal) v0 v2 v5 v10 (ix2 r f) = v5 (ix1 r) * (∑ e : Fin 8192, v0 (ix2 r e) * v2 (ix2 e f)) + v10 (ix1 f) := by
  unfold k1_pay1
  rw [addf_apply, mulf_apply]
  rw [shapeCast_self, shapeCast_self]
  rw [Cert.PlainDot.matmul_zero_ix2 dot_S256x8192_S8192x64_S256x64_1_0_0_1_n_n rfl]
  rw [Cert.LibKeepdims.broadcastTo_a1_ab_apply, Cert.LibKeepdims.shapeCast_a_a1_apply]
  rw [broadcastTo_1b_ab_apply, shapeCast_a_1a_apply]
  rfl

end Cert.KernelIdeal.Pay1

end
-- ==== Proof.Region1.lean ====
/-
  The second pipeline's output array after the run, entry by entry: the 128 row blocks of 256 rows each hold the
  row scale times the row-by-column product plus the column's bias, of the arrays as the region finds them.
-/
import proofs.«145153_j87445534147336_2_alg».proof.Proof.Gen.KernelIdeal.Frame
import proofs.«145153_j87445534147336_2_alg».proof.Proof.Payload1
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Reg1

theorem zero2 : (![0, 0] : Fin 2 → Nat) = fun _ => 0 := funext fun a => by fin_cases a <;> rfl
theorem zero1 : (![0] : Fin 1 → Nat) = fun _ => 0 := funext fun a => by fin_cases a <;> rfl

/-- Entry `(n, f)` of the result: the row's scale times the product's entry, plus the column's bias. -/
def entry (dvA : S32768.Idx → EReal) (HA : S32768x8192.Idx → EReal) (ZA : S8192x64.Idx → EReal) (bA : S64.Idx → EReal)
    (n : Fin 32768) (f : Fin 64) : EReal :=
  dvA (ix1 n) * (∑ e : Fin 8192, HA (ix2 n e) * ZA (ix2 e f)) + bA (ix1 f)

/-- The whole result array as one function of the four argument arrays. -/
def G (dvA : S32768.Idx → EReal) (HA : S32768x8192.Idx → EReal) (ZA : S8192x64.Idx → EReal) (bA : S64.Idx → EReal) :
    S32768x64.Idx → EReal := fun i => entry dvA HA ZA bA (i 0) (i 1)

/-- The printed index maps, decided over the grid: the row-blocked windows are at block `t` at point `t`, the
    whole-array windows at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = t.val
    ∧ win1_3.index t (0 : Fin 1) = 0
    ∧ win1_4.index t (0 : Fin 2) = t.val ∧ win1_4.index t (1 : Fin 2) = 0 :=
  (by decide +kernel : ∀ t : Fin grid1.N, _)

/-- What the body leaves in the output's staging buffer, at an entry, from the four loaded blocks. -/
theorem out_apply (x0 : Vec Ideal S256x8192 .f32) (x1 : Vec Ideal S8192x64 .bf16) (x2 : Vec Ideal S256 .f32) (x3 : Vec Ideal S64 .f32)
    (r : Fin 256) (f : Fin 64) :
    out1_4 (F := Ideal) x0 x1 x2 x3 (ix2 r f) = x2 (ix1 r) * (∑ e : Fin 8192, x0 (ix2 r e) * x1 (ix2 e f)) + x3 (ix1 f) := by
  unfold out1_4
  rw [View.canon_unit_zero zero2]
  simp only [View.ld_unit_zero (S := S256x8192) zero2, View.ld_unit_zero (S := S8192x64) zero2,
    View.ld_unit_zero (S := S256) zero1, View.ld_unit_zero (S := S64) zero1]
  exact Cert.KernelIdeal.Pay1.k1_pay1_apply x0 x1 x2 x3 r f

variable (V : (c : Dev nD) → (b : Ref sig .tc) → Buf (Elt Ideal) ((c : Thread nD τ).loc b))

/-- Window 0's block at point `t` is rows `256 t … 256 t + 255` of its array. -/
theorem blk0_apply (c : Dev nD) (t : Fin cfg1.N) (r : Fin 256) (e : Fin 8192) (n : Fin 32768) (hn : n.val = t.val * 256 + r.val) :
    (iblk1 (F := Ideal) V c 0 t : Vec Ideal S256x8192 .f32) (ix2 r e) = (V c main_arg1 : S32768x8192.Idx → EReal) (ix2 n e) := by
  obtain ⟨e0, e1, -⟩ := idx_facts t
  unfold iblk1
  rw [View.read_apply]
  show (V c main_arg1 : S32768x8192.Idx → EReal) _ = _
  congr 1
  funext a
  apply Fin.ext
  match a with
  | ⟨0, _⟩ => show win1_0.index t (0 : Fin 2) * 256 + 1 * r.val = n.val; omega
  | ⟨1, _⟩ => show win1_0.index t (1 : Fin 2) * 8192 + 1 * e.val = e.val; omega

/-- Window 1's one block is its whole array. -/
theorem blk1_apply (c : Dev nD) (t : Fin cfg1.N) (e : Fin 8192) (f : Fin 64) :
    (iblk1 (F := Ideal) V c 1 t : Vec Ideal S8192x64 .bf16) (ix2 e f) = (V c main_v18 : S8192x64.Idx → EReal) (ix2 e f) := by
  obtain ⟨-, -, e0, e1, -⟩ := idx_facts t
  unfold iblk1
  rw [View.read_apply]
  show (V c main_v18 : S8192x64.Idx → EReal) _ = _
  congr 1
  funext a
  apply Fin.ext
  match a with
  | ⟨0, _⟩ => show win1_1.index t (0 : Fin 2) * 8192 + 1 * e.val = e.val; omega
  | ⟨1, _⟩ => show win1_1.index t (1 : Fin 2) * 64 + 1 * f.val = f.val; omega

/-- Window 2's block at point `t` is entries `256 t … 256 t + 255` of its array. -/
theorem blk2_apply (c : Dev nD) (t : Fin cfg1.N) (r : Fin 256) (n : Fin 32768) (hn : n.val = t.val * 256 + r.val) :
    (iblk1 (F := Ideal) V c 2 t : Vec Ideal S256 .f32) (ix1 r) = (V c main_v0_0 : S32768.Idx → EReal) (ix1 n) := by
  obtain ⟨-, -, -, -, e0, -⟩ := idx_facts t
  unfold iblk1
  rw [View.read_apply]
  show (V c main_v0_0 : S32768.Idx → EReal) _ = _
  congr 1
  funext a
  apply Fin.ext
  match a with
  | ⟨0, _⟩ => show win1_2.index t (0 : Fin 1) * 256 + 1 * r.val = n.val; omega

/-- Window 3's one block is its whole array. -/
theorem blk3_apply (c : Dev nD) (t : Fin cfg1.N) (f : Fin 64) :
    (iblk1 (F := Ideal) V c 3 t : Vec Ideal S64 .f32) (ix1 f) = (V c main_arg3 : S64.Idx → EReal) (ix1 f) := by
  obtain ⟨-, -, -, -, -, e0, -⟩ := idx_facts t
  unfold iblk1
  rw [View.read_apply]
  show (V c main_arg3 : S64.Idx → EReal) _ = _
  congr 1
  funext a
  apply Fin.ext
  match a with
  | ⟨0, _⟩ => show win1_3.index t (0 : Fin 1) * 64 + 1 * f.val = f.val; omega

/-- WHAT POINT `t` WRITES BACK is block `t` of `G` of the argument arrays as the region finds them. -/
theorem flushed_eq (c : Dev nD) (t : Fin cfg1.N) :
    (dat1 (F := Ideal) V c).flushed 4 t
      = ((cfg1.win 4).blk t).view.read (Elt Ideal) (G (V c main_v0_0) (V c main_arg1) (V c main_v18) (V c main_arg3)) := by
  show (cfg1.win 4).cut (grid1.coords t) ((dat1 V c).after 4 t) = _
  rw [after1_4]
  funext y
  obtain ⟨r, f, rfl⟩ : ∃ (r : Fin 256) (f : Fin 64), y = ix2 r f := ⟨y 0, y 1, eq_ix2 y⟩
  obtain ⟨-, -, -, -, -, -, e0, e1⟩ := idx_facts t
  have ht : t.val < 128 := lt_of_lt_of_eq t.isLt N_1
  obtain ⟨n, hn⟩ : ∃ n : Fin 32768, n.val = t.val * 256 + r.val := ⟨⟨t.val * 256 + r.val, by omega⟩, rfl⟩
  refine (out_apply _ _ _ _ r f).trans ?_
  have hemb : ((cfg1.win 4).blk t).view.emb (ix2 r f) = (ix2 n f : S32768x64.Idx) := by
    funext a
    apply Fin.ext
    match a with
    | ⟨0, _⟩ => show win1_4.index t (0 : Fin 2) * 256 + 1 * r.val = n.val; omega
    | ⟨1, _⟩ => show win1_4.index t (1 : Fin 2) * 64 + 1 * f.val = f.val; omega
  rw [View.read_apply]
  show _ = G _ _ _ _ (((cfg1.win 4).blk t).view.emb (ix2 r f))
  rw [hemb]
  show _ = entry _ _ _ _ n f
  unfold entry
  rw [blk2_apply V c t r n hn, blk3_apply V c t f]
  refine congrArg (fun s : EReal => (_ : EReal) * s + (_ : EReal)) ?_
  refine Finset.sum_congr rfl fun e _ => ?_
  rw [blk0_apply V c t r e n hn, blk1_apply V c t e f]

/-- An index of the array is in point `t`'s block iff each coordinate is in the block's range on its axis. -/
theorem mem_blk (t : Fin cfg1.N) (i : S32768x64.Idx) :
    i ∈ ((cfg1.win 4).blk t).view.set ↔ ∀ a : Fin 2, win1_4.index t a * S256x64.size a ≤ (i a).val ∧ (i a).val < win1_4.index t a * S256x64.size a + S256x64.size a := by
  show i ∈ ((View.whole main_v19).slice (win1_4.rect t)).set ↔ _
  rw [View.set_slice_whole, Rect.mem_set_unit]
  exact Iff.rfl

/-- Every entry of the array is written back by some point: row `n` by point `n / 256`. -/
theorem cover (i : S32768x64.Idx) : ∃ t : Fin cfg1.N, (cfg1.win 4).flush t = true ∧ i ∈ ((cfg1.win 4).blk t).view.set := by
  have hi0 : (i 0).val < 32768 := (i 0).isLt
  have hi1 : (i 1).val < 64 := (i 1).isLt
  obtain ⟨t, ht⟩ : ∃ t : Fin cfg1.N, t.val = (i 0).val / 256 :=
    ⟨⟨(i 0).val / 256, lt_of_lt_of_eq (by omega : (i 0).val / 256 < 128) N_1.symm⟩, rfl⟩
  obtain ⟨-, -, -, -, -, -, e0, e1⟩ := idx_facts t
  refine ⟨t, flush1_4 t, ?_⟩
  rw [mem_blk]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 64 ≤ (i 1).val ∧ (i 1).val < win1_4.index t (1 : Fin 2) * 64 + 64; omega

/-- THE ARRAY after the run: `G` of the argument arrays as the region finds them, everywhere. -/
theorem arr_eq (c : Dev nD) :
    (dat1 (F := Ideal) V c).arrAt 4 cfg1.N = G (V c main_v0_0) (V c main_arg1) (V c main_v18) (V c main_arg3) :=
  (dat1 V c).arrAt_eq_of_cover 4 (G (V c main_v0_0) (V c main_arg1) (V c main_v18) (V c main_arg3))
    (fun t _ => flushed_eq V c t) cover

/-- The second pipeline leaves in its output array, at `(n, f)`, the scale of row `n` times the product's entry
    plus the bias of column `f`, whatever the entry contents. -/
theorem final1 (V : (c : Dev nD) → (b : Ref sig .tc) → Buf (Elt Ideal) ((c : Thread nD τ).loc b)) (c : Dev nD)
    (dvA : S32768.Idx → EReal) (HA : S32768x8192.Idx → EReal) (ZA : S8192x64.Idx → EReal) (bA : S64.Idx → EReal)
    (hdv : (V c main_v0_0 : S32768.Idx → EReal) = dvA) (hH : (V c main_arg1 : S32768x8192.Idx → EReal) = HA)
    (hZ : (V c main_v18 : S8192x64.Idx → EReal) = ZA) (hb : (V c main_arg3 : S64.Idx → EReal) = bA)
    (n : Fin 32768) (f : Fin 64) :
    ((dat1 (F := Ideal) V c).arrAt 4 cfg1.N : S32768x64.Idx → EReal) (ix2 n f)
      = dvA (ix1 n) * (∑ e : Fin 8192, HA (ix2 n e) * ZA (ix2 e f)) + bA (ix1 f) := by
  subst hdv hH hZ hb
  rw [arr_eq V c]
  rfl

end Cert.KernelIdeal.Reg1

end
-- ==== Proof.Host1.lean ====
import proofs.«145153_j87445534147336_2_alg».proof.Proof.Gen.KernelIdeal.Launch
import proofs.«145153_j87445534147336_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Host1

/-! ## The host operations between the two kernels

Between the two kernel launches the program forms, from the two per-half partial arrays — the column sums
`CS : [2, 1, 8192]` and the gathered features `ZP : [2, 8192, 64]` —, the scaled hyperedge features
`1 / (CS₀ e + CS₁ e + ε) · (ZP₀ e f + ZP₁ e f)`. Each operation is read at one index. -/

/-- Half `c` of the per-half column sums with its two unit axes dropped, at column `e`. -/
theorem half_CS (off : Fin 3 → Nat) (h : S2x1x8192.Slices off S1x1x8192) (CS : S2x1x8192.Idx → EReal)
    (c : Fin 2) (h0 : off 0 = c.val) (h1 : off 1 = 0) (h2 : off 2 = 0) (e : Fin 8192) :
    shapeCast S8192 (extractStridedSlice S1x1x8192 off CS h) shapeCasts_S1x1x8192_S8192 (ix1 e)
      = CS (ix3 c (0 : Fin 1) e) := by
  refine (shapeCast_apply _ shapeCasts_S1x1x8192_S8192 (ix1 e) (ix3 (0 : Fin 1) (0 : Fin 1) e) ?_).trans ?_
  · rw [Shape.rowMajor_val_three, Shape.rowMajor_val_one]
    show (0 * 1 + 0) * 8192 + e.val = e.val
    omega
  · refine extractStridedSlice_apply off CS h _ _ fun a => ?_
    match a with
    | ⟨0, _⟩ => show c.val = off 0 + 0; omega
    | ⟨1, _⟩ => show 0 = off 1 + 0; omega
    | ⟨2, _⟩ => show e.val = off 2 + e.val; omega

/-- Half `c` of the per-half gathered features with its unit axis dropped, at `(e, f)`. -/
theorem half_ZP (off : Fin 3 → Nat) (h : S2x8192x64.Slices off S1x8192x64) (ZP : S2x8192x64.Idx → EReal)
    (c : Fin 2) (h0 : off 0 = c.val) (h1 : off 1 = 0) (h2 : off 2 = 0) (e : Fin 8192) (f : Fin 64) :
    shapeCast S8192x64 (extractStridedSlice S1x8192x64 off ZP h) shapeCasts_S1x8192x64_S8192x64 (ix2 e f)
      = ZP (ix3 c e f) := by
  refine (shapeCast_apply _ shapeCasts_S1x8192x64_S8192x64 (ix2 e f) (ix3 (0 : Fin 1) e f) ?_).trans ?_
  · rw [Shape.rowMajor_val_three, Shape.rowMajor_val_two]
    show (0 * 8192 + e.val) * 64 + f.val = e.val * 64 + f.val
    omega
  · refine extractStridedSlice_apply off ZP h _ _ fun a => ?_
    match a with
    | ⟨0, _⟩ => show c.val = off 0 + 0; omega
    | ⟨1, _⟩ => show e.val = off 1 + e.val; omega
    | ⟨2, _⟩ => show f.val = off 2 + f.val; omega

/-- A scalar spread over the 8192 columns is that scalar at every column. -/
theorem splat_apply (x : S_.Idx → EReal) (e : Fin 8192) :
    broadcastInDim S8192 ![] bcast_S_S8192 x (ix1 e) = x ix0 :=
  broadcastInDim_apply _ bcast_S_S8192 x (ix1 e) ix0 (fun a => a.elim0)

/-- A column vector spread along the 64 features, through `[8192, 1]`, is its entry `e` at `(e, f)`. -/
theorem col_bcast_apply (d : S8192.Idx → EReal) (e : Fin 8192) (f : Fin 64) :
    broadcastInDim S8192x64 ![0, 1] bcast_S8192x1_S8192x64_0_1 (broadcastInDim S8192x1 ![0] bcast_S8192_S8192x1_0 d) (ix2 e f)
      = d (ix1 e) := by
  refine (broadcastInDim_apply _ bcast_S8192x1_S8192x64_0_1 _ (ix2 e f) (ix2 e (0 : Fin 1)) fun a => ?_).trans ?_
  · match a with
    | ⟨0, _⟩ => show e.val = if (8192 : Nat) = 1 then 0 else e.val; rw [if_neg (by decide)]
    | ⟨1, _⟩ => show 0 = if (1 : Nat) = 1 then 0 else f.val; rw [if_pos rfl]
  · exact broadcastInDim_apply _ bcast_S8192_S8192x1_0 d (ix2 e (0 : Fin 1)) (ix1 e) fun a => by
      match a with
      | ⟨0, _⟩ => show e.val = if (8192 : Nat) = 1 then 0 else e.val; rw [if_neg (by decide)]

/-- The arithmetic of the chain over any four operand arrays: the reciprocal of the summed column sums plus `ε`,
    spread along the features, times the summed features; the final conversion is the identity on the extended reals. -/
theorem chain_apply (a0 a1 : FVec Ideal S8192 .f32) (b0 b1 : FVec Ideal S8192x64 .f32) (e : Fin 8192) (f : Fin 64) :
    (truncf .bf16 (mulf (broadcastInDim S8192x64 ![0, 1] bcast_S8192x1_S8192x64_0_1
        (broadcastInDim S8192x1 ![0] bcast_S8192_S8192x1_0
          (Host.divf (F := Ideal) (broadcastInDim S8192 ![] bcast_S_S8192 (constant (F := Ideal) S_ .f32 0x3F800000#32))
            (addf (addf a0 a1) (broadcastInDim S8192 ![] bcast_S_S8192 (constant (F := Ideal) S_ .f32 0x3727C5AC#32))))))
        (addf b0 b1)) bitsLt_bf16_f32 : S8192x64.Idx → EReal) (ix2 e f)
      = Cert.Hyper.deOf ((a0 (ix1 e) : EReal) + a1 (ix1 e)) * ((b0 (ix2 e f) : EReal) + b1 (ix2 e f)) := by
  show (broadcastInDim S8192x64 ![0, 1] bcast_S8192x1_S8192x64_0_1
        (broadcastInDim S8192x1 ![0] bcast_S8192_S8192x1_0
          ((Host.divf (F := Ideal) (broadcastInDim S8192 ![] bcast_S_S8192 (constant (F := Ideal) S_ .f32 0x3F800000#32))
            (addf (addf a0 a1) (broadcastInDim S8192 ![] bcast_S_S8192 (constant (F := Ideal) S_ .f32 0x3727C5AC#32)))) : S8192.Idx → EReal))
        (ix2 e f) : EReal) * ((b0 (ix2 e f) : EReal) + b1 (ix2 e f)) = _
  rw [col_bcast_apply]
  show Ideal.div ((broadcastInDim S8192 ![] bcast_S_S8192 (constant (F := Ideal) S_ .f32 0x3F800000#32 : S_.Idx → EReal)) (ix1 e))
      (((a0 (ix1 e) : EReal) + a1 (ix1 e))
        + (broadcastInDim S8192 ![] bcast_S_S8192 (constant (F := Ideal) S_ .f32 0x3727C5AC#32 : S_.Idx → EReal)) (ix1 e))
      * ((b0 (ix2 e f) : EReal) + b1 (ix2 e f)) = _
  rw [splat_apply, splat_apply]
  rfl

/-- The array the second kernel reads as its scaled hyperedge features, for any contents of the buffers before the
    host operations. -/
theorem host_v18 (Wv : Valuation τ sig (Elt Ideal)) (CS : S2x1x8192.Idx → EReal) (ZP : S2x8192x64.Idx → EReal)
    (hCS : (Wv (Proc.devRef .tc main_v0_1) : S2x1x8192.Idx → EReal) = CS) (hZP : (Wv (Proc.devRef .tc main_v0_2) : S2x8192x64.Idx → EReal) = ZP)
    (e : Fin 8192) (f : Fin 64) :
    (StableHlo.after (hostOps1 (F := Ideal)) Wv (Proc.devRef .tc main_v18) : S8192x64.Idx → EReal) (ix2 e f)
      = Cert.Hyper.deOf (CS (ix3 (0 : Fin 2) (0 : Fin 1) e) + CS (ix3 (1 : Fin 2) (0 : Fin 1) e))
        * (ZP (ix3 (0 : Fin 2) e f) + ZP (ix3 (1 : Fin 2) e f)) := by
  subst hCS hZP
  have hA0 := half_CS ![0, 0, 0] slices_S2x1x8192_S1x1x8192_0_0_0 (Wv (Proc.devRef .tc main_v0_1)) 0 rfl rfl rfl e
  have hA1 := half_CS ![1, 0, 0] slices_S2x1x8192_S1x1x8192_1_0_0 (Wv (Proc.devRef .tc main_v0_1)) 1 rfl rfl rfl e
  have hB0 := half_ZP ![0, 0, 0] slices_S2x8192x64_S1x8192x64_0_0_0 (Wv (Proc.devRef .tc main_v0_2)) 0 rfl rfl rfl e f
  have hB1 := half_ZP ![1, 0, 0] slices_S2x8192x64_S1x8192x64_1_0_0 (Wv (Proc.devRef .tc main_v0_2)) 1 rfl rfl rfl e f
  open Idealize.ShloMosaic.StableHlo in after_results_simp
  refine (chain_apply _ _ _ _ e f).trans ?_
  exact congrArg₂ (fun s z : EReal => Cert.Hyper.deOf s * z) (congrArg₂ (· + ·) hA0 hA1) (congrArg₂ (· + ·) hB0 hB1)

/-- The host operations write none of the vertex scalings, the incidence weights or the bias. -/
theorem host_keeps (Wv : Valuation τ sig (Elt Ideal)) :
    StableHlo.after (hostOps1 (F := Ideal)) Wv (Proc.devRef .tc main_v0_0) = Wv (Proc.devRef .tc main_v0_0)
    ∧ StableHlo.after (hostOps1 (F := Ideal)) Wv (Proc.devRef .tc main_arg1) = Wv (Proc.devRef .tc main_arg1)
    ∧ StableHlo.after (hostOps1 (F := Ideal)) Wv (Proc.devRef .tc main_arg3) = Wv (Proc.devRef .tc main_arg3) := by
  refine ⟨?_, ?_, ?_⟩
  · exact StableHlo.after_of_forall_not_mem (b := Proc.devRef .tc main_v0_0) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
  · exact StableHlo.after_of_forall_not_mem (b := Proc.devRef .tc main_arg1) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))
  · exact StableHlo.after_of_forall_not_mem (b := Proc.devRef .tc main_arg3) _ _ (List.forall_iff_forall_mem.mp (by
      simp only [hostOps1, List.Forall, StableHlo.nullary_writes, StableHlo.unary_writes, StableHlo.binary_writes,
        StableHlo.reshape_writes, Finset.mem_singleton]
      repeat' apply And.intro
      all_goals exact StableHlo.devRef_ne_of_ne (by decide)))

end Cert.KernelIdeal.Host1
end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.KValue.lean ====
/-
  The idealized kernel's result, as the specification of the four arguments.

  The segments are read in order. The first pipeline leaves the vertex scalings and, per half of the rows, the column
  sums of `H` and the gather `∑ₙ H n e · msg n f` over that half. The host operations add the two halves, turn the
  column sums into the hyperedge scalings, and scale the gather. The second pipeline scatters back to the vertices.
  The sums over a half's 64 tiles of 256 rows, added for the two halves, are the sums over all 32768 rows: every row
  is `(64 cc + t) · 256 + r` for exactly one half `cc`, tile `t` and row `r` within the tile.
-/
import proofs.«145153_j87445534147336_2_alg».proof.Proof.KRun
import proofs.«145153_j87445534147336_2_alg».proof.Proof.Region0
import proofs.«145153_j87445534147336_2_alg».proof.Proof.Region1
import proofs.«145153_j87445534147336_2_alg».proof.Proof.Host1
import proofs.«145153_j87445534147336_2_alg».proof.Proof.Spec
import proofs.«145153_j87445534147336_2_alg».proof.Proof.LibSumRegroup
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg) (c : Dev nD)

/-- The incidence weights as launched. -/
abbrev HA : S32768x8192.Idx → EReal := m ((c.tc : Thread nD τ).loc main_arg1)
/-- The features as launched. -/
abbrev XA : S32768x64.Idx → EReal := m ((c.tc : Thread nD τ).loc main_arg0)
/-- The weight matrix as launched. -/
abbrev WA : S64x64.Idx → EReal := m ((c.tc : Thread nD τ).loc main_arg2)
/-- The bias as launched. -/
abbrev bA : S64.Idx → EReal := m ((c.tc : Thread nD τ).loc main_arg3)

/-- The arguments by coordinates. -/
abbrev Hf : Fin 32768 → Fin 8192 → EReal := fun n e => HA m c (ix2 n e)
abbrev Xf : Fin 32768 → Fin 64 → EReal := fun n k => XA m c (ix2 n k)
abbrev Wf : Fin 64 → Fin 64 → EReal := fun k f => WA m c (ix2 k f)
abbrev bf : Fin 64 → EReal := fun f => bA m c (ix1 f)

/-! ## The buffers at the segment boundaries -/

theorem V1_dv : (W1 m ρ c (Proc.devRef .tc main_v0_0) : S32768.Idx → EReal) = Reg0.G3 (HA m c) :=
  (W1_arr m ρ c 3).trans (Reg0.final3 (V0 m ρ) c (HA m c) rfl)

theorem V1_cs : (W1 m ρ c (Proc.devRef .tc main_v0_1) : S2x1x8192.Idx → EReal) = Reg0.G4 (HA m c) :=
  (W1_arr m ρ c 4).trans (Reg0.final4 (V0 m ρ) c (HA m c) rfl)

theorem V1_z : (W1 m ρ c (Proc.devRef .tc main_v0_2) : S2x8192x64.Idx → EReal) = Reg0.G5 (HA m c) (XA m c) (WA m c) :=
  (W1_arr m ρ c 5).trans (Reg0.final5 (V0 m ρ) c (HA m c) (XA m c) (WA m c) rfl rfl rfl)

theorem V1_H : (W1 m ρ c (Proc.devRef .tc main_arg1) : S32768x8192.Idx → EReal) = HA m c :=
  (W1_arr m ρ c 0).trans (((dat0 (V0 m ρ) c).arrAt_in 0 rfl _).trans (A_eq0 (V0 m ρ) c 0))

theorem V1_b : (W1 m ρ c (Proc.devRef .tc main_arg3) : S64.Idx → EReal) = bA m c :=
  W1_of_ne m ρ c main_arg3 (by decide)

theorem V2_dv : (V2 m ρ c main_v0_0 : S32768.Idx → EReal) = Reg0.G3 (HA m c) :=
  (Host1.host_keeps (W1 m ρ c)).1.trans (V1_dv m ρ c)

theorem V2_H : (V2 m ρ c main_arg1 : S32768x8192.Idx → EReal) = HA m c :=
  (Host1.host_keeps (W1 m ρ c)).2.1.trans (V1_H m ρ c)

theorem V2_b : (V2 m ρ c main_arg3 : S64.Idx → EReal) = bA m c :=
  (Host1.host_keeps (W1 m ρ c)).2.2.trans (V1_b m ρ c)

theorem V2_z (e : Fin 8192) (f : Fin 64) :
    (V2 m ρ c main_v18 : S8192x64.Idx → EReal) (ix2 e f)
      = Cert.Hyper.deOf (Reg0.G4 (HA m c) (ix3 (0 : Fin 2) (0 : Fin 1) e) + Reg0.G4 (HA m c) (ix3 (1 : Fin 2) (0 : Fin 1) e))
        * (Reg0.G5 (HA m c) (XA m c) (WA m c) (ix3 (0 : Fin 2) e f) + Reg0.G5 (HA m c) (XA m c) (WA m c) (ix3 (1 : Fin 2) e f)) :=
  Host1.host_v18 (W1 m ρ c) _ _ (V1_cs m ρ c) (V1_z m ρ c) e f

/-- The result buffer at `(n, f)`: the second pipeline's scatter of what the host operations prepared. -/
theorem result_apply (n : Fin 32768) (f : Fin 64) :
    (W3 m ρ c (Proc.devRef .tc main_v19) : S32768x64.Idx → EReal) (ix2 n f)
      = Reg0.G3 (HA m c) (ix1 n) * (∑ e : Fin 8192, HA m c (ix2 n e) * (V2 m ρ c main_v18 : S8192x64.Idx → EReal) (ix2 e f))
        + bA m c (ix1 f) :=
  (congrFun (Named.W3_result m ρ c) (ix2 n f)).trans
    (Reg1.final1 (V2 m ρ) c (Reg0.G3 (HA m c)) (HA m c) (V2 m ρ c main_v18) (bA m c)
      (V2_dv m ρ c) (V2_H m ρ c) rfl (V2_b m ρ c) n f)

/-! ## Two halves of 64 tiles of 256 rows are all the rows -/

/-- The two halves' tiles are the 128 tiles. -/
theorem halves_sum (T : ℕ → EReal) :
    (∑ p ∈ Finset.Ico (0 * 64) (0 * 64 + 64), T p) + (∑ p ∈ Finset.Ico (1 * 64) (1 * 64 + 64), T p) = ∑ p : Fin 128, T p.val := by
  rw [show (0 * 64 + 64 : ℕ) = 1 * 64 from rfl, Finset.sum_Ico_consecutive T (by norm_num) (by norm_num),
    show (0 * 64 : ℕ) = 0 from rfl, show (1 * 64 + 64 : ℕ) = 128 from rfl, ← Finset.range_eq_Ico, Finset.sum_range]

/-- The 128 tiles' column sums are the column sums. -/
theorem colT_total (e : Fin 8192) :
    (∑ p : Fin 128, Reg0.colT (HA m c) p.val e) = ∑ n : Fin 32768, HA m c (ix2 n e) := by
  rw [Cert.SumRegroup.sum_fin_mul 128 256 (fun n : Fin 32768 => HA m c (ix2 n e))]
  refine Finset.sum_congr rfl fun p _ => ?_
  unfold Reg0.colT
  rw [dif_pos p.isLt]

/-- The 128 tiles' shares of the gather are the gather. -/
theorem prodT_total (e : Fin 8192) (f : Fin 64) :
    (∑ p : Fin 128, Reg0.prodT (HA m c) (XA m c) (WA m c) p.val e f)
      = ∑ n : Fin 32768, Reg0.term (HA m c) (XA m c) (WA m c) n e f := by
  rw [Cert.SumRegroup.sum_fin_mul 128 256 (fun n : Fin 32768 => Reg0.term (HA m c) (XA m c) (WA m c) n e f)]
  refine Finset.sum_congr rfl fun p _ => ?_
  unfold Reg0.prodT
  rw [dif_pos p.isLt]

/-- The hyperedge scaling the host operations compute is the specification's. -/
theorem de_eq (e : Fin 8192) :
    Cert.Hyper.deOf (Reg0.G4 (HA m c) (ix3 (0 : Fin 2) (0 : Fin 1) e) + Reg0.G4 (HA m c) (ix3 (1 : Fin 2) (0 : Fin 1) e))
      = Cert.Hyper.de (Hf m c) e := by
  unfold Cert.Hyper.de
  refine congrArg Cert.Hyper.deOf ?_
  exact (halves_sum fun p => Reg0.colT (HA m c) p e).trans (colT_total m c e)

/-- The two halves' gathers added are the specification's gather. -/
theorem edge_eq (e : Fin 8192) (f : Fin 64) :
    Reg0.G5 (HA m c) (XA m c) (WA m c) (ix3 (0 : Fin 2) e f) + Reg0.G5 (HA m c) (XA m c) (WA m c) (ix3 (1 : Fin 2) e f)
      = Cert.Hyper.edge (Hf m c) (Xf m c) (Wf m c) e f := by
  unfold Cert.Hyper.edge
  exact (halves_sum fun p => Reg0.prodT (HA m c) (XA m c) (WA m c) p e f).trans (prodT_total m c e f)

/-- The result buffer at `(n, f)` is the specification. -/
theorem result_eq (n : Fin 32768) (f : Fin 64) :
    (W3 m ρ c (Proc.devRef .tc main_v19) : S32768x64.Idx → EReal) (ix2 n f)
      = Cert.Hyper.out (Hf m c) (Xf m c) (Wf m c) (bf m c) n f := by
  refine (result_apply m ρ c n f).trans ?_
  unfold Cert.Hyper.out
  refine congrArg (· + bA m c (ix1 f)) ?_
  refine congrArg (Reg0.G3 (HA m c) (ix1 n) * ·) ?_
  refine Finset.sum_congr rfl fun e _ => congrArg (HA m c (ix2 n e) * ·) ?_
  rw [V2_z m ρ c e f, de_eq m c e, edge_eq m c e f]
  rfl

/-- The result array, entry by entry. -/
def result : Buf (Elt Ideal) ((c.tc : Thread nD τ).loc main_v19) := fun i =>
  Cert.Hyper.out (Hf m c) (Xf m c) (Wf m c) (bf m c) (⟨(i 0).val, (i 0).isLt⟩ : Fin 32768) (⟨(i 1).val, (i 1).isLt⟩ : Fin 64)

theorem W3_eq_result : W3 m ρ c (Proc.devRef .tc main_v19) = result m c := by
  funext i
  obtain ⟨n, f, rfl⟩ : ∃ (n : Fin 32768) (f : Fin 64), i = ix2 n f := ⟨i 0, i 1, eq_ix2 i⟩
  exact result_eq m ρ c n f

/-- Every weakly fair execution of the idealized kernel terminates with the result array at the specification of the
    arguments, the arguments unchanged. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (W3_eq_result m ρ c), (h c).2⟩) (Named.run_named m ρ)

end Cert.KernelIdeal.KValue

end
-- ==== Proof.RefSide.lean ====
/-
  The reference program computes the hypergraph convolution of the specification.

  Its result is read one operation at a time. Every layout operation (a broadcast along a new axis, a
  transposition) reads its operand at an index computed from the result's index; at an index given by its
  coordinates these composed index functions are again indices given by coordinates, which is the first
  block of equations below. With them each named quantity of the specification is met in turn:
  the vertex scaling, the hyperedge scaling, the scaled features, the gathered sums, their scaling, and
  last the scattered result plus the bias. The sums have the initial value zero, which addition absorbs.
-/
import proofs.«145153_j87445534147336_2_alg».proof.Defs
import proofs.«145153_j87445534147336_2_alg».proof.Proof.Gen.ReferenceIdeal.Run
import proofs.«145153_j87445534147336_2_alg».proof.Proof.Gen.ReferenceIdeal.Read
import proofs.«145153_j87445534147336_2_alg».proof.Proof.Spec
import Idealize.ShloMosaic.Lib.ValueIdx

noncomputable section
open Idealize.ShloMosaic Idealize.ShloMosaic.TcCoe Idealize.SL.Sem Idealize.ShloMosaic.ValueIdx
open Cert.ReferenceIdeal Cert.ReferenceIdeal.Gen

namespace Cert.ReferenceIdeal.RefValue

/-! ## Indices: the composed index functions at an index given by coordinates -/

/-- Row n of the incidence array, column k: the summand of the sum over the hyperedges. -/
theorem idx_v0 (n : Fin 32768) (k : Fin 8192) : Read.idx_main_v0 (ix1 n) k = ix2 n k :=
  funext fun a => Fin.ext (by match a with | ⟨0, _⟩ => rfl | ⟨1, _⟩ => rfl)

/-- Column e of the incidence array, row k: the summand of the sum over the vertices. -/
theorem idx_v6 (e : Fin 8192) (k : Fin 32768) : Read.idx_main_v6 (ix1 e) k = ix2 k e :=
  funext fun a => Fin.ext (by match a with | ⟨0, _⟩ => rfl | ⟨1, _⟩ => rfl)

/-- The features' row n, column k. -/
theorem lidx_v11 (n : Fin 32768) (f k : Fin 64) : Read.lidx_main_v11 (ix2 n f) k = ix2 n k :=
  funext fun a => Fin.ext (by match a with | ⟨0, _⟩ => rfl | ⟨1, _⟩ => rfl)

/-- The weights' row k, column f. -/
theorem ridx_v11 (n : Fin 32768) (f k : Fin 64) : Read.ridx_main_v11 (ix2 n f) k = ix2 k f :=
  funext fun a => Fin.ext (by match a with | ⟨0, _⟩ => rfl | ⟨1, _⟩ => rfl)

/-- A vertex scaling broadcast along the features is read at the vertex. -/
theorem idx_v12_v13 (n : Fin 32768) (f : Fin 64) :
    Read.idx_main_v12 (Read.idx_main_v13 (ix2 n f)) = ix1 n :=
  funext fun a => Fin.ext (by match a with | ⟨0, _⟩ => rfl)

/-- The transposed incidence array at (e, k) is the incidence array at (k, e). -/
theorem idx_v15 (e : Fin 8192) (k : Fin 32768) : Read.idx_main_v15 (ix2 e k) = ix2 k e :=
  funext fun a => Fin.ext (by match a with | ⟨0, _⟩ => rfl | ⟨1, _⟩ => rfl)

/-- The transposed incidence array's row e, column k. -/
theorem lidx_v16 (e : Fin 8192) (f : Fin 64) (k : Fin 32768) : Read.lidx_main_v16 (ix2 e f) k = ix2 e k :=
  funext fun a => Fin.ext (by match a with | ⟨0, _⟩ => rfl | ⟨1, _⟩ => rfl)

/-- The scaled features' row k, column f. -/
theorem ridx_v16 (e : Fin 8192) (f : Fin 64) (k : Fin 32768) : Read.ridx_main_v16 (ix2 e f) k = ix2 k f :=
  funext fun a => Fin.ext (by match a with | ⟨0, _⟩ => rfl | ⟨1, _⟩ => rfl)

/-- A hyperedge scaling broadcast along the features is read at the hyperedge. -/
theorem idx_v17_v18 (e : Fin 8192) (f : Fin 64) :
    Read.idx_main_v17 (Read.idx_main_v18 (ix2 e f)) = ix1 e :=
  funext fun a => Fin.ext (by match a with | ⟨0, _⟩ => rfl)

/-- The incidence array's row n, column k. -/
theorem lidx_v20 (n : Fin 32768) (f : Fin 64) (k : Fin 8192) : Read.lidx_main_v20 (ix2 n f) k = ix2 n k :=
  funext fun a => Fin.ext (by match a with | ⟨0, _⟩ => rfl | ⟨1, _⟩ => rfl)

/-- The scaled gathered sums' row k, column f. -/
theorem ridx_v20 (n : Fin 32768) (f : Fin 64) (k : Fin 8192) : Read.ridx_main_v20 (ix2 n f) k = ix2 k f :=
  funext fun a => Fin.ext (by match a with | ⟨0, _⟩ => rfl | ⟨1, _⟩ => rfl)

/-- The second broadcast of the vertex scaling, likewise read at the vertex. -/
theorem idx_v21_v22 (n : Fin 32768) (f : Fin 64) :
    Read.idx_main_v21 (Read.idx_main_v22 (ix2 n f)) = ix1 n :=
  funext fun a => Fin.ext (by match a with | ⟨0, _⟩ => rfl)

/-- The bias broadcast along the vertices is read at the feature. -/
theorem idx_v24_v25 (n : Fin 32768) (f : Fin 64) :
    Read.idx_main_v24 (Read.idx_main_v25 (ix2 n f)) = ix1 f :=
  funext fun a => Fin.ext (by match a with | ⟨0, _⟩ => rfl)

/-! ## The named quantities -/

/-- The vertex scaling: one over the root of the row sum plus the regularizer. -/
theorem ref_dv (x1 : (⟨S32768x8192, .f32⟩ : BufTy).Contents (Elt Ideal)) (n : Fin 32768) :
    Read.val_main_v5 (F := Ideal) x1 (ix1 n) = Cert.Hyper.dv (fun n e => x1 (ix2 n e)) n := by
  rw [Read.val_main_v5_apply, Read.val_main_v4_apply, Read.val_main_cst_1_apply, Read.val_main_v3_apply,
    Read.val_main_v2_apply, Read.val_main_v0_apply, Read.val_main_cst_apply, Read.val_main_v1_apply,
    Read.val_main_cst_0_apply]
  simp only [Ideal.addf_def, Ideal.hostDivf_def, Ideal.hostUnary_sqrt_def, Ideal.ofBits_def,
    Ideal.ofBits_zero_f32, zero_add, idx_v0]
  rfl

/-- The hyperedge scaling: one over the column sum plus the regularizer. -/
theorem ref_de (x1 : (⟨S32768x8192, .f32⟩ : BufTy).Contents (Elt Ideal)) (e : Fin 8192) :
    Read.val_main_v10 (F := Ideal) x1 (ix1 e) = Cert.Hyper.de (fun n e => x1 (ix2 n e)) e := by
  rw [Read.val_main_v10_apply, Read.val_main_v9_apply, Read.val_main_cst_4_apply, Read.val_main_v8_apply,
    Read.val_main_v6_apply, Read.val_main_cst_2_apply, Read.val_main_v7_apply, Read.val_main_cst_3_apply]
  simp only [Ideal.addf_def, Ideal.hostDivf_def, Ideal.ofBits_def, Ideal.ofBits_zero_f32, zero_add, idx_v6]
  rfl

/-- The scaled features: the vertex scaling times the features' product with the weights. -/
theorem ref_msg (x0 : (⟨S32768x64, .f32⟩ : BufTy).Contents (Elt Ideal)) (x1 : (⟨S32768x8192, .f32⟩ : BufTy).Contents (Elt Ideal))
    (x2 : (⟨S64x64, .f32⟩ : BufTy).Contents (Elt Ideal)) (n : Fin 32768) (f : Fin 64) :
    Read.val_main_v14 (F := Ideal) x0 x1 x2 (ix2 n f)
      = Cert.Hyper.msg (fun n e => x1 (ix2 n e)) (fun n k => x0 (ix2 n k)) (fun k f => x2 (ix2 k f)) n f := by
  rw [Read.val_main_v14_apply, Read.val_main_v13_apply, Read.val_main_v12_apply, idx_v12_v13, ref_dv,
    Read.val_main_v11_apply]
  simp only [Ideal.mulf_def, lidx_v11, ridx_v11]
  rfl

/-- What a hyperedge gathers: the sum over the vertices of the incidence weight times the scaled features. -/
theorem ref_edge (x0 : (⟨S32768x64, .f32⟩ : BufTy).Contents (Elt Ideal)) (x1 : (⟨S32768x8192, .f32⟩ : BufTy).Contents (Elt Ideal))
    (x2 : (⟨S64x64, .f32⟩ : BufTy).Contents (Elt Ideal)) (e : Fin 8192) (f : Fin 64) :
    Read.val_main_v16 (F := Ideal) x0 x1 x2 (ix2 e f)
      = Cert.Hyper.edge (fun n e => x1 (ix2 n e)) (fun n k => x0 (ix2 n k)) (fun k f => x2 (ix2 k f)) e f := by
  rw [Read.val_main_v16_apply]
  unfold Cert.Hyper.edge
  refine Finset.sum_congr rfl fun k _ => ?_
  rw [lidx_v16, ridx_v16, Read.val_main_v15_apply, idx_v15, ref_msg]

/-- The gathered sums scaled by the hyperedge. -/
theorem ref_edgeS (x0 : (⟨S32768x64, .f32⟩ : BufTy).Contents (Elt Ideal)) (x1 : (⟨S32768x8192, .f32⟩ : BufTy).Contents (Elt Ideal))
    (x2 : (⟨S64x64, .f32⟩ : BufTy).Contents (Elt Ideal)) (e : Fin 8192) (f : Fin 64) :
    Read.val_main_v19 (F := Ideal) x0 x1 x2 (ix2 e f)
      = Cert.Hyper.edgeS (fun n e => x1 (ix2 n e)) (fun n k => x0 (ix2 n k)) (fun k f => x2 (ix2 k f)) e f := by
  rw [Read.val_main_v19_apply, Read.val_main_v18_apply, Read.val_main_v17_apply, idx_v17_v18, ref_de, ref_edge]
  rfl

/-- The result: the vertex scaling times the sum over the hyperedges, plus the bias. -/
theorem ref_out (x0 : (⟨S32768x64, .f32⟩ : BufTy).Contents (Elt Ideal)) (x1 : (⟨S32768x8192, .f32⟩ : BufTy).Contents (Elt Ideal))
    (x2 : (⟨S64x64, .f32⟩ : BufTy).Contents (Elt Ideal)) (x3 : (⟨S64, .f32⟩ : BufTy).Contents (Elt Ideal)) (n : Fin 32768) (f : Fin 64) :
    Cert.ReferenceIdeal.Read.val_main_v26 (F := Ideal) x0 x1 x2 x3 (ix2 n f)
      = Cert.Hyper.out (fun n e => x1 (ix2 n e)) (fun n k => x0 (ix2 n k)) (fun k f => x2 (ix2 k f)) (fun f => x3 (ix1 f)) n f := by
  rw [Read.val_main_v26_apply, Read.val_main_v23_apply, Read.val_main_v22_apply, Read.val_main_v21_apply,
    idx_v21_v22, ref_dv, Read.val_main_v25_apply, Read.val_main_v24_apply, idx_v24_v25, Read.val_main_v20_apply]
  unfold Cert.Hyper.out
  simp only [Ideal.addf_def, Ideal.mulf_def]
  refine congrArg (fun s : EReal => Cert.Hyper.dv (fun n e => x1 (ix2 n e)) n * s + x3 (ix1 f))
    (Finset.sum_congr rfl fun k _ => ?_)
  rw [lidx_v20, ridx_v20, ref_edgeS]

end Cert.ReferenceIdeal.RefValue
end
-- ==== Proof.lean ====
/-
  The hypergraph convolution kernel against its reference, on the extended reals.

  Both programs compute  out n f = dv n · (∑ₑ H n e · de e · ∑ₙ' H n' e · dv n' · ∑ₖ X n' k · W k f) + b f  with
  dv n = 1 / √(∑ₑ H n e + ε) and de e = 1 / (∑ₙ H n e + ε), the same word for ε and for 1 on both sides, the same
  square root and quotient. The reference takes each sum over the 32768 vertices at once. The kernel takes them in
  two halves of 64 tiles of 256 rows — a first pallas_call accumulating, per half, the column sums of `H` and the
  gather on the hyperedges; a few host operations adding the halves and scaling; a second pallas_call scattering
  back to the vertices. Every matrix product's casts to half precision are the identity on the extended reals, and
  a sum taken tile by tile is the sum, addition there being commutative and associative: no input needs to be finite.

    frames      — the generated frame certificates (the kernel and its idealization), the reference's generated run;
    preserves   — the idealization rewrote nothing;
    algebraic   — Proof/KValue.lean (the kernel's result array is the specification, Proof/Spec.lean) against
                  Proof/RefSide.lean (so is the reference's), from arguments that agree.
-/
import proofs.«145153_j87445534147336_2_alg».proof.Defs
import proofs.«145153_j87445534147336_2_alg».proof.Proof.Gen.Kernel
import proofs.«145153_j87445534147336_2_alg».proof.Proof.Gen.Kernel.Frame
import proofs.«145153_j87445534147336_2_alg».proof.Proof.Gen.KernelIdeal
import proofs.«145153_j87445534147336_2_alg».proof.Proof.Gen.KernelIdeal.Frame
import proofs.«145153_j87445534147336_2_alg».proof.Proof.Gen.ReferenceIdeal
import proofs.«145153_j87445534147336_2_alg».proof.Proof.Gen.ReferenceIdeal.Run
import proofs.«145153_j87445534147336_2_alg».proof.Proof.Gen.ReferenceIdeal.Read
import proofs.«145153_j87445534147336_2_alg».proof.Proof.Gen.Pre_finite_inputs
import proofs.«145153_j87445534147336_2_alg».proof.Proof.KValue
import proofs.«145153_j87445534147336_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result, as the generated stage states it, is the specification's array of its arguments. -/
theorem ref_result (x0 : (⟨Cert.ReferenceIdeal.S32768x64, .f32⟩ : BufTy).Contents (Elt Ideal))
    (x1 : (⟨Cert.ReferenceIdeal.S32768x8192, .f32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal)) :
    Cert.ReferenceIdeal.Read.val_main_v26 (F := Ideal) x0 x1 x2 x3
      = fun i => Cert.Hyper.out (fun n e => x1 (ix2 n e)) (fun n k => x0 (ix2 n k)) (fun k f => x2 (ix2 k f)) (fun f => x3 (ix1 f))
          (⟨(i 0).val, (i 0).isLt⟩ : Fin 32768) (⟨(i 1).val, (i 1).isLt⟩ : Fin 64) := by
  funext i
  obtain ⟨n, f, rfl⟩ : ∃ (n : Fin 32768) (f : Fin 64), i = ix2 n f := ⟨i 0, i 1, eq_ix2 i⟩
  exact Cert.ReferenceIdeal.RefValue.ref_out x0 x1 x2 x3 n f

/-- From arguments that agree, both idealized programs end with the specification's array of those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, ref_result, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
